-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2 : Shape := ⟨2, ![8192, 2]⟩
abbrev S8x4096x1024 : Shape := ⟨3, ![8, 4096, 1024]⟩
abbrev S8x1024x2048 : Shape := ⟨3, ![8, 1024, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024x2048 : S_.BroadcastsInDim S8x1024x2048 (![] : Fin 0 → Fin S8x1024x2048.rank)
  reducesTo_S8x1024x2048_S_d0_1_2 : S8x1024x2048.ReducesTo [0, 1, 2] S_

variable [Facts]

def fn_part1 {F : FTy → Type} [FloatOps F] (main_v13 : IVec S_ 1) (main_v16 : IVec S8x1024x2048 1) : IVec S_ 1 :=
  let main_c_5 : IVec S_ 1 := constantI S_ 1 1#1
  let main_v17 : IVec S_ 1 := (fun x v => Host.reduce IntOp.andi x v reducesTo_S8x1024x2048_S_d0_1_2 h_S_) main_v16 main_c_5
  let main_v18 : IVec S_ 1 := andi main_v13 main_v17
  main_v18

def fn {F : FTy → Type} [FloatOps F] (main_arg0 : FVec F S8192x1024 .f32) (main_arg1 : FVec F S8192x2 .f32) (main_arg2 : IVec S8192x2 32) (main_arg3 : FVec F S8x4096x1024 .f32) (main_arg4 : FVec F S8x1024x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8x4096x1024 .f32 := Host.absf main_arg3
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S8x1024x2048 .f32 := Host.absf main_arg4
  let main_cst_4 : FVec F S_ .f32 := constant S_ .f32 0x7F800000#32
  let main_v15 : FVec F S8x1024x2048 .f32 := broadcastInDim S8x1024x2048 ![] bcast_S_S8x1024x2048 main_cst_4
  let main_v16 : IVec S8x1024x2048 1 := cmpf .olt main_v14 main_v15
  fn_part1 (F := F) main_v13 main_v16
-- ==== Kernel.lean ====
abbrev S8192x1024 : Shape := ⟨2, ![8192, 1024]⟩
abbrev S8192x2 : Shape := ⟨2, ![8192, 2]⟩
abbrev S8x4096x1024 : Shape := ⟨3, ![8, 4096, 1024]⟩
abbrev S8x1024x2048 : Shape := ⟨3, ![8, 1024, 2048]⟩
abbrev S8x2048x1024 : Shape := ⟨3, ![8, 2048, 1024]⟩
abbrev S256x1024 : Shape := ⟨2, ![256, 1024]⟩
abbrev S256x2 : Shape := ⟨2, ![256, 2]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S256x2048 : Shape := ⟨2, ![256, 2048]⟩
abbrev S1024x2048 : Shape := ⟨2, ![1024, 2048]⟩
abbrev S256 : Shape := ⟨1, ![256]⟩
abbrev S256x1 : Shape := ⟨2, ![256, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x2, .f32⟩
  | .hbm, ⟨2, _⟩ => ⟨S8192x2, .i32⟩
  | .hbm, ⟨3, _⟩ => ⟨S8x4096x1024, .f32⟩
  | .hbm, ⟨4, _⟩ => ⟨S8x1024x2048, .f32⟩
  | .hbm, ⟨5, _⟩ => ⟨S8192x1024, .bf16⟩
  | .hbm, ⟨6, _⟩ => ⟨S8x2048x1024, .f32⟩
  | .hbm, ⟨7, _⟩ => ⟨S8x2048x1024, .bf16⟩
  | .hbm, ⟨8, _⟩ => ⟨S8x2048x1024, .f32⟩
  | .hbm, ⟨9, _⟩ => ⟨S8x2048x1024, .bf16⟩
  | .hbm, ⟨10, _⟩ => ⟨S8x1024x2048, .bf16⟩
  | .hbm, ⟨11, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x2, .i32⟩
  | .local _ .vmem, ⟨3, _⟩ => ⟨S256x2, .i32⟩
  | .local _ .vmem, ⟨4, _⟩ => ⟨S256x2, .f32⟩
  | .local _ .vmem, ⟨5, _⟩ => ⟨S256x2, .f32⟩
  | .local _ .vmem, ⟨6, _⟩ => ⟨S1x2048x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x1024x2048, .bf16⟩
  | .local _ .vmem, ⟨11, _⟩ => ⟨S1x1024x2048, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  slices_S8x4096x1024_S8x2048x1024_0_0_0 : S8x4096x1024.Slices ![0, 0, 0] S8x2048x1024
  slices_S8x4096x1024_S8x2048x1024_0_2048_0 : S8x4096x1024.Slices ![0, 2048, 0] S8x2048x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S256x2_S256x2_0_0 : ∀ a, (![0, 0] : Fin 2 → Nat) a + S256x2.size a ≤ S256x2.size a
  h_S256x2 : 0 < S256x2.numel
  reduces_S256x2_S256 : S256x2.Reduces [1] S256
  shapeCasts_S256_S256x1 : S256.ShapeCasts S256x1
  broadcasts_S256x1_S256x1024 : S256x1.Broadcasts S256x1024
  dot_S256x1024_S2048x1024_S256x2048_1_1_0_0_n_n_wf : DotDims.WF S256x1024 S2048x1024 S256x2048 [1] [1] [0] [0] [] []
  dot_S256x2048_S1024x2048_S256x1024_1_1_0_0_n_n_wf : DotDims.WF S256x2048 S1024x2048 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S8192x2.size a
  hwx0_1 : ∀ i : grid0.Coords, EltTy.bits .i32 = 32 ∨ (Rect.block (s := S8192x2) S256x2.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2.size a ≤ S8192x2.size a
  hwx0_2 : ∀ i : grid0.Coords, EltTy.bits .f32 = 32 ∨ (Rect.block (s := S8192x2) S256x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S8x2048x1024.size a
  hwx0_3 : ∀ i : grid0.Coords, EltTy.bits .bf16 = 32 ∨ (Rect.block (s := S8x2048x1024) S1x2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S8x2048x1024.size a
  hwx0_4 : ∀ i : grid0.Coords, EltTy.bits .bf16 = 32 ∨ (Rect.block (s := S8x2048x1024) S1x2048x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x2048.size a ≤ S8x1024x2048.size a
  hwx0_5 : ∀ i : grid0.Coords, EltTy.bits .bf16 = 32 ∨ (Rect.block (s := S8x1024x2048) S1x1024x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x2048x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x2 : Shape := ⟨2, ![8192, 2]⟩
abbrev S8x4096x1024 : Shape := ⟨3, ![8, 4096, 1024]⟩
abbrev S8x1024x2048 : Shape := ⟨3, ![8, 1024, 2048]⟩
abbrev S_ : Shape := ⟨0, ![]⟩
abbrev S8192 : Shape := ⟨1, ![8192]⟩
abbrev S1x4096x1024 : Shape := ⟨3, ![1, 4096, 1024]⟩
abbrev S4096x1024 : Shape := ⟨2, ![4096, 1024]⟩
abbrev S8192x4096 : Shape := ⟨2, ![8192, 4096]⟩
abbrev S8192x2048 : Shape := ⟨2, ![8192, 2048]⟩
abbrev S1x1024x2048 : Shape := ⟨3, ![1, 1024, 2048]⟩
abbrev S1024x2048 : Shape := ⟨2, ![1024, 2048]⟩
abbrev S8192x1 : Shape := ⟨2, ![8192, 1]⟩

abbrev nBuf : Space → Nat
  | .hbm => 255
  | .vmem => 0
  | .smem => 0
  | _ => 0

abbrev hbmTy0_0 (i : Nat) : BufTy := match i % 128 with
  | 0 => ⟨S8192x1024, .f32⟩
  | 1 => ⟨S8192x2, .f32⟩
  | 2 => ⟨S8192x2, .i32⟩
  | 3 => ⟨S8x4096x1024, .f32⟩
  | 4 => ⟨S8x1024x2048, .f32⟩
  | 5 => ⟨S_, .f32⟩
  | 6 => ⟨S8192x1024, .f32⟩
  | 7 => ⟨S_, .i32⟩
  | 8 => ⟨S8192x2, .i32⟩
  | 9 => ⟨S8192x2, .i1⟩
  | 10 => ⟨S_, .f32⟩
  | 11 => ⟨S_, .f32⟩
  | 12 => ⟨S8192x2, .f32⟩
  | 13 => ⟨S8192x2, .f32⟩
  | 14 => ⟨S_, .f32⟩
  | 15 => ⟨S8192, .f32⟩
  | 16 => ⟨S1x4096x1024, .f32⟩
  | 17 => ⟨S4096x1024, .f32⟩
  | 18 => ⟨S8192x4096, .f32⟩
  | 19 => ⟨S8192x2048, .f32⟩
  | 20 => ⟨S8192x2048, .f32⟩
  | 21 => ⟨S8192x2048, .f32⟩
  | 22 => ⟨S8192x2048, .f32⟩
  | 23 => ⟨S_, .f32⟩
  | 24 => ⟨S8192x2048, .f32⟩
  | 25 => ⟨S8192x2048, .f32⟩
  | 26 => ⟨S_, .f32⟩
  | 27 => ⟨S8192x2048, .f32⟩
  | 28 => ⟨S8192x2048, .f32⟩
  | 29 => ⟨S8192x2048, .f32⟩
  | 30 => ⟨S8192x2048, .f32⟩
  | 31 => ⟨S1x1024x2048, .f32⟩
  | 32 => ⟨S1024x2048, .f32⟩
  | 33 => ⟨S8192x1024, .f32⟩
  | 34 => ⟨S8192x1, .f32⟩
  | 35 => ⟨S8192x1024, .f32⟩
  | 36 => ⟨S8192x1024, .f32⟩
  | 37 => ⟨S8192x1024, .f32⟩
  | 38 => ⟨S_, .i32⟩
  | 39 => ⟨S8192x2, .i32⟩
  | 40 => ⟨S8192x2, .i1⟩
  | 41 => ⟨S_, .f32⟩
  | 42 => ⟨S_, .f32⟩
  | 43 => ⟨S8192x2, .f32⟩
  | 44 => ⟨S8192x2, .f32⟩
  | 45 => ⟨S_, .f32⟩
  | 46 => ⟨S8192, .f32⟩
  | 47 => ⟨S1x4096x1024, .f32⟩
  | 48 => ⟨S4096x1024, .f32⟩
  | 49 => ⟨S8192x4096, .f32⟩
  | 50 => ⟨S8192x2048, .f32⟩
  | 51 => ⟨S8192x2048, .f32⟩
  | 52 => ⟨S8192x2048, .f32⟩
  | 53 => ⟨S8192x2048, .f32⟩
  | 54 => ⟨S_, .f32⟩
  | 55 => ⟨S8192x2048, .f32⟩
  | 56 => ⟨S8192x2048, .f32⟩
  | 57 => ⟨S_, .f32⟩
  | 58 => ⟨S8192x2048, .f32⟩
  | 59 => ⟨S8192x2048, .f32⟩
  | 60 => ⟨S8192x2048, .f32⟩
  | 61 => ⟨S8192x2048, .f32⟩
  | 62 => ⟨S1x1024x2048, .f32⟩
  | 63 => ⟨S1024x2048, .f32⟩
  | 64 => ⟨S8192x1024, .f32⟩
  | 65 => ⟨S8192x1, .f32⟩
  | 66 => ⟨S8192x1024, .f32⟩
  | 67 => ⟨S8192x1024, .f32⟩
  | 68 => ⟨S8192x1024, .f32⟩
  | 69 => ⟨S_, .i32⟩
  | 70 => ⟨S8192x2, .i32⟩
  | 71 => ⟨S8192x2, .i1⟩
  | 72 => ⟨S_, .f32⟩
  | 73 => ⟨S_, .f32⟩
  | 74 => ⟨S8192x2, .f32⟩
  | 75 => ⟨S8192x2, .f32⟩
  | 76 => ⟨S_, .f32⟩
  | 77 => ⟨S8192, .f32⟩
  | 78 => ⟨S1x4096x1024, .f32⟩
  | 79 => ⟨S4096x1024, .f32⟩
  | 80 => ⟨S8192x4096, .f32⟩
  | 81 => ⟨S8192x2048, .f32⟩
  | 82 => ⟨S8192x2048, .f32⟩
  | 83 => ⟨S8192x2048, .f32⟩
  | 84 => ⟨S8192x2048, .f32⟩
  | 85 => ⟨S_, .f32⟩
  | 86 => ⟨S8192x2048, .f32⟩
  | 87 => ⟨S8192x2048, .f32⟩
  | 88 => ⟨S_, .f32⟩
  | 89 => ⟨S8192x2048, .f32⟩
  | 90 => ⟨S8192x2048, .f32⟩
  | 91 => ⟨S8192x2048, .f32⟩
  | 92 => ⟨S8192x2048, .f32⟩
  | 93 => ⟨S1x1024x2048, .f32⟩
  | 94 => ⟨S1024x2048, .f32⟩
  | 95 => ⟨S8192x1024, .f32⟩
  | 96 => ⟨S8192x1, .f32⟩
  | 97 => ⟨S8192x1024, .f32⟩
  | 98 => ⟨S8192x1024, .f32⟩
  | 99 => ⟨S8192x1024, .f32⟩
  | 100 => ⟨S_, .i32⟩
  | 101 => ⟨S8192x2, .i32⟩
  | 102 => ⟨S8192x2, .i1⟩
  | 103 => ⟨S_, .f32⟩
  | 104 => ⟨S_, .f32⟩
  | 105 => ⟨S8192x2, .f32⟩
  | 106 => ⟨S8192x2, .f32⟩
  | 107 => ⟨S_, .f32⟩
  | 108 => ⟨S8192, .f32⟩
  | 109 => ⟨S1x4096x1024, .f32⟩
  | 110 => ⟨S4096x1024, .f32⟩
  | 111 => ⟨S8192x4096, .f32⟩
  | 112 => ⟨S8192x2048, .f32⟩
  | 113 => ⟨S8192x2048, .f32⟩
  | 114 => ⟨S8192x2048, .f32⟩
  | 115 => ⟨S8192x2048, .f32⟩
  | 116 => ⟨S_, .f32⟩
  | 117 => ⟨S8192x2048, .f32⟩
  | 118 => ⟨S8192x2048, .f32⟩
  | 119 => ⟨S_, .f32⟩
  | 120 => ⟨S8192x2048, .f32⟩
  | 121 => ⟨S8192x2048, .f32⟩
  | 122 => ⟨S8192x2048, .f32⟩
  | 123 => ⟨S8192x2048, .f32⟩
  | 124 => ⟨S1x1024x2048, .f32⟩
  | 125 => ⟨S1024x2048, .f32⟩
  | 126 => ⟨S8192x1024, .f32⟩
  | 127 => ⟨S8192x1, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S_, .i32⟩
  | 4 => ⟨S8192x2, .i32⟩
  | 5 => ⟨S8192x2, .i1⟩
  | 6 => ⟨S_, .f32⟩
  | 7 => ⟨S_, .f32⟩
  | 8 => ⟨S8192x2, .f32⟩
  | 9 => ⟨S8192x2, .f32⟩
  | 10 => ⟨S_, .f32⟩
  | 11 => ⟨S8192, .f32⟩
  | 12 => ⟨S1x4096x1024, .f32⟩
  | 13 => ⟨S4096x1024, .f32⟩
  | 14 => ⟨S8192x4096, .f32⟩
  | 15 => ⟨S8192x2048, .f32⟩
  | 16 => ⟨S8192x2048, .f32⟩
  | 17 => ⟨S8192x2048, .f32⟩
  | 18 => ⟨S8192x2048, .f32⟩
  | 19 => ⟨S_, .f32⟩
  | 20 => ⟨S8192x2048, .f32⟩
  | 21 => ⟨S8192x2048, .f32⟩
  | 22 => ⟨S_, .f32⟩
  | 23 => ⟨S8192x2048, .f32⟩
  | 24 => ⟨S8192x2048, .f32⟩
  | 25 => ⟨S8192x2048, .f32⟩
  | 26 => ⟨S8192x2048, .f32⟩
  | 27 => ⟨S1x1024x2048, .f32⟩
  | 28 => ⟨S1024x2048, .f32⟩
  | 29 => ⟨S8192x1024, .f32⟩
  | 30 => ⟨S8192x1, .f32⟩
  | 31 => ⟨S8192x1024, .f32⟩
  | 32 => ⟨S8192x1024, .f32⟩
  | 33 => ⟨S8192x1024, .f32⟩
  | 34 => ⟨S_, .i32⟩
  | 35 => ⟨S8192x2, .i32⟩
  | 36 => ⟨S8192x2, .i1⟩
  | 37 => ⟨S_, .f32⟩
  | 38 => ⟨S_, .f32⟩
  | 39 => ⟨S8192x2, .f32⟩
  | 40 => ⟨S8192x2, .f32⟩
  | 41 => ⟨S_, .f32⟩
  | 42 => ⟨S8192, .f32⟩
  | 43 => ⟨S1x4096x1024, .f32⟩
  | 44 => ⟨S4096x1024, .f32⟩
  | 45 => ⟨S8192x4096, .f32⟩
  | 46 => ⟨S8192x2048, .f32⟩
  | 47 => ⟨S8192x2048, .f32⟩
  | 48 => ⟨S8192x2048, .f32⟩
  | 49 => ⟨S8192x2048, .f32⟩
  | 50 => ⟨S_, .f32⟩
  | 51 => ⟨S8192x2048, .f32⟩
  | 52 => ⟨S8192x2048, .f32⟩
  | 53 => ⟨S_, .f32⟩
  | 54 => ⟨S8192x2048, .f32⟩
  | 55 => ⟨S8192x2048, .f32⟩
  | 56 => ⟨S8192x2048, .f32⟩
  | 57 => ⟨S8192x2048, .f32⟩
  | 58 => ⟨S1x1024x2048, .f32⟩
  | 59 => ⟨S1024x2048, .f32⟩
  | 60 => ⟨S8192x1024, .f32⟩
  | 61 => ⟨S8192x1, .f32⟩
  | 62 => ⟨S8192x1024, .f32⟩
  | 63 => ⟨S8192x1024, .f32⟩
  | 64 => ⟨S8192x1024, .f32⟩
  | 65 => ⟨S_, .i32⟩
  | 66 => ⟨S8192x2, .i32⟩
  | 67 => ⟨S8192x2, .i1⟩
  | 68 => ⟨S_, .f32⟩
  | 69 => ⟨S_, .f32⟩
  | 70 => ⟨S8192x2, .f32⟩
  | 71 => ⟨S8192x2, .f32⟩
  | 72 => ⟨S_, .f32⟩
  | 73 => ⟨S8192, .f32⟩
  | 74 => ⟨S1x4096x1024, .f32⟩
  | 75 => ⟨S4096x1024, .f32⟩
  | 76 => ⟨S8192x4096, .f32⟩
  | 77 => ⟨S8192x2048, .f32⟩
  | 78 => ⟨S8192x2048, .f32⟩
  | 79 => ⟨S8192x2048, .f32⟩
  | 80 => ⟨S8192x2048, .f32⟩
  | 81 => ⟨S_, .f32⟩
  | 82 => ⟨S8192x2048, .f32⟩
  | 83 => ⟨S8192x2048, .f32⟩
  | 84 => ⟨S_, .f32⟩
  | 85 => ⟨S8192x2048, .f32⟩
  | 86 => ⟨S8192x2048, .f32⟩
  | 87 => ⟨S8192x2048, .f32⟩
  | 88 => ⟨S8192x2048, .f32⟩
  | 89 => ⟨S1x1024x2048, .f32⟩
  | 90 => ⟨S1024x2048, .f32⟩
  | 91 => ⟨S8192x1024, .f32⟩
  | 92 => ⟨S8192x1, .f32⟩
  | 93 => ⟨S8192x1024, .f32⟩
  | 94 => ⟨S8192x1024, .f32⟩
  | 95 => ⟨S8192x1024, .f32⟩
  | 96 => ⟨S_, .i32⟩
  | 97 => ⟨S8192x2, .i32⟩
  | 98 => ⟨S8192x2, .i1⟩
  | 99 => ⟨S_, .f32⟩
  | 100 => ⟨S_, .f32⟩
  | 101 => ⟨S8192x2, .f32⟩
  | 102 => ⟨S8192x2, .f32⟩
  | 103 => ⟨S_, .f32⟩
  | 104 => ⟨S8192, .f32⟩
  | 105 => ⟨S1x4096x1024, .f32⟩
  | 106 => ⟨S4096x1024, .f32⟩
  | 107 => ⟨S8192x4096, .f32⟩
  | 108 => ⟨S8192x2048, .f32⟩
  | 109 => ⟨S8192x2048, .f32⟩
  | 110 => ⟨S8192x2048, .f32⟩
  | 111 => ⟨S8192x2048, .f32⟩
  | 112 => ⟨S_, .f32⟩
  | 113 => ⟨S8192x2048, .f32⟩
  | 114 => ⟨S8192x2048, .f32⟩
  | 115 => ⟨S_, .f32⟩
  | 116 => ⟨S8192x2048, .f32⟩
  | 117 => ⟨S8192x2048, .f32⟩
  | 118 => ⟨S8192x2048, .f32⟩
  | 119 => ⟨S8192x2048, .f32⟩
  | 120 => ⟨S1x1024x2048, .f32⟩
  | 121 => ⟨S1024x2048, .f32⟩
  | 122 => ⟨S8192x1024, .f32⟩
  | 123 => ⟨S8192x1, .f32⟩
  | 124 => ⟨S8192x1024, .f32⟩
  | 125 => ⟨S8192x1024, .f32⟩
  | 126 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_call2_v0 : Ref sig .tc := ⟨.hbm, 42, rfl⟩
abbrev main_call2_v1 : Ref sig .tc := ⟨.hbm, 43, rfl⟩
abbrev main_v21 : Ref sig .tc := ⟨.hbm, 44, rfl⟩
abbrev main_cst_4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_call3_v0 : Ref sig .tc := ⟨.hbm, 52, rfl⟩
abbrev main_call3_v1 : Ref sig .tc := ⟨.hbm, 53, rfl⟩
abbrev main_call3_cst : Ref sig .tc := ⟨.hbm, 54, rfl⟩
abbrev main_call3_v2 : Ref sig .tc := ⟨.hbm, 55, rfl⟩
abbrev main_call3_v3 : Ref sig .tc := ⟨.hbm, 56, rfl⟩
abbrev main_call3_cst_0 : Ref sig .tc := ⟨.hbm, 57, rfl⟩
abbrev main_call3_v4 : Ref sig .tc := ⟨.hbm, 58, rfl⟩
abbrev main_call3_v5 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_5 : Ref sig .tc := ⟨.hbm, 69, rfl⟩
abbrev main_v37 : Ref sig .tc := ⟨.hbm, 70, rfl⟩
abbrev main_v38 : Ref sig .tc := ⟨.hbm, 71, rfl⟩
abbrev main_cst_6 : Ref sig .tc := ⟨.hbm, 72, rfl⟩
abbrev main_call4_v0 : Ref sig .tc := ⟨.hbm, 73, rfl⟩
abbrev main_call4_v1 : Ref sig .tc := ⟨.hbm, 74, rfl⟩
abbrev main_v39 : Ref sig .tc := ⟨.hbm, 75, rfl⟩
abbrev main_cst_7 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_call5_v0 : Ref sig .tc := ⟨.hbm, 83, rfl⟩
abbrev main_call5_v1 : Ref sig .tc := ⟨.hbm, 84, rfl⟩
abbrev main_call5_cst : Ref sig .tc := ⟨.hbm, 85, rfl⟩
abbrev main_call5_v2 : Ref sig .tc := ⟨.hbm, 86, rfl⟩
abbrev main_call5_v3 : Ref sig .tc := ⟨.hbm, 87, rfl⟩
abbrev main_call5_cst_0 : Ref sig .tc := ⟨.hbm, 88, rfl⟩
abbrev main_call5_v4 : Ref sig .tc := ⟨.hbm, 89, rfl⟩
abbrev main_call5_v5 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_c_8 : Ref sig .tc := ⟨.hbm, 100, rfl⟩
abbrev main_v55 : Ref sig .tc := ⟨.hbm, 101, rfl⟩
abbrev main_v56 : Ref sig .tc := ⟨.hbm, 102, rfl⟩
abbrev main_cst_9 : Ref sig .tc := ⟨.hbm, 103, rfl⟩
abbrev main_call6_v0 : Ref sig .tc := ⟨.hbm, 104, rfl⟩
abbrev main_call6_v1 : Ref sig .tc := ⟨.hbm, 105, rfl⟩
abbrev main_v57 : Ref sig .tc := ⟨.hbm, 106, rfl⟩
abbrev main_cst_10 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_call7_v0 : Ref sig .tc := ⟨.hbm, 114, rfl⟩
abbrev main_call7_v1 : Ref sig .tc := ⟨.hbm, 115, rfl⟩
abbrev main_call7_cst : Ref sig .tc := ⟨.hbm, 116, rfl⟩
abbrev main_call7_v2 : Ref sig .tc := ⟨.hbm, 117, rfl⟩
abbrev main_call7_v3 : Ref sig .tc := ⟨.hbm, 118, rfl⟩
abbrev main_call7_cst_0 : Ref sig .tc := ⟨.hbm, 119, rfl⟩
abbrev main_call7_v4 : Ref sig .tc := ⟨.hbm, 120, rfl⟩
abbrev main_call7_v5 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_c_11 : Ref sig .tc := ⟨.hbm, 131, rfl⟩
abbrev main_v73 : Ref sig .tc := ⟨.hbm, 132, rfl⟩
abbrev main_v74 : Ref sig .tc := ⟨.hbm, 133, rfl⟩
abbrev main_cst_12 : Ref sig .tc := ⟨.hbm, 134, rfl⟩
abbrev main_call8_v0 : Ref sig .tc := ⟨.hbm, 135, rfl⟩
abbrev main_call8_v1 : Ref sig .tc := ⟨.hbm, 136, rfl⟩
abbrev main_v75 : Ref sig .tc := ⟨.hbm, 137, rfl⟩
abbrev main_cst_13 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_call9_v0 : Ref sig .tc := ⟨.hbm, 145, rfl⟩
abbrev main_call9_v1 : Ref sig .tc := ⟨.hbm, 146, rfl⟩
abbrev main_call9_cst : Ref sig .tc := ⟨.hbm, 147, rfl⟩
abbrev main_call9_v2 : Ref sig .tc := ⟨.hbm, 148, rfl⟩
abbrev main_call9_v3 : Ref sig .tc := ⟨.hbm, 149, rfl⟩
abbrev main_call9_cst_0 : Ref sig .tc := ⟨.hbm, 150, rfl⟩
abbrev main_call9_v4 : Ref sig .tc := ⟨.hbm, 151, rfl⟩
abbrev main_call9_v5 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_c_14 : Ref sig .tc := ⟨.hbm, 162, rfl⟩
abbrev main_v91 : Ref sig .tc := ⟨.hbm, 163, rfl⟩
abbrev main_v92 : Ref sig .tc := ⟨.hbm, 164, rfl⟩
abbrev main_cst_15 : Ref sig .tc := ⟨.hbm, 165, rfl⟩
abbrev main_call10_v0 : Ref sig .tc := ⟨.hbm, 166, rfl⟩
abbrev main_call10_v1 : Ref sig .tc := ⟨.hbm, 167, rfl⟩
abbrev main_v93 : Ref sig .tc := ⟨.hbm, 168, rfl⟩
abbrev main_cst_16 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_call11_v0 : Ref sig .tc := ⟨.hbm, 176, rfl⟩
abbrev main_call11_v1 : Ref sig .tc := ⟨.hbm, 177, rfl⟩
abbrev main_call11_cst : Ref sig .tc := ⟨.hbm, 178, rfl⟩
abbrev main_call11_v2 : Ref sig .tc := ⟨.hbm, 179, rfl⟩
abbrev main_call11_v3 : Ref sig .tc := ⟨.hbm, 180, rfl⟩
abbrev main_call11_cst_0 : Ref sig .tc := ⟨.hbm, 181, rfl⟩
abbrev main_call11_v4 : Ref sig .tc := ⟨.hbm, 182, rfl⟩
abbrev main_call11_v5 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_v103 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_c_17 : Ref sig .tc := ⟨.hbm, 193, rfl⟩
abbrev main_v109 : Ref sig .tc := ⟨.hbm, 194, rfl⟩
abbrev main_v110 : Ref sig .tc := ⟨.hbm, 195, rfl⟩
abbrev main_cst_18 : Ref sig .tc := ⟨.hbm, 196, rfl⟩
abbrev main_call12_v0 : Ref sig .tc := ⟨.hbm, 197, rfl⟩
abbrev main_call12_v1 : Ref sig .tc := ⟨.hbm, 198, rfl⟩
abbrev main_v111 : Ref sig .tc := ⟨.hbm, 199, rfl⟩
abbrev main_cst_19 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_call13_v0 : Ref sig .tc := ⟨.hbm, 207, rfl⟩
abbrev main_call13_v1 : Ref sig .tc := ⟨.hbm, 208, rfl⟩
abbrev main_call13_cst : Ref sig .tc := ⟨.hbm, 209, rfl⟩
abbrev main_call13_v2 : Ref sig .tc := ⟨.hbm, 210, rfl⟩
abbrev main_call13_v3 : Ref sig .tc := ⟨.hbm, 211, rfl⟩
abbrev main_call13_cst_0 : Ref sig .tc := ⟨.hbm, 212, rfl⟩
abbrev main_call13_v4 : Ref sig .tc := ⟨.hbm, 213, rfl⟩
abbrev main_call13_v5 : Ref sig .tc := ⟨.hbm, 214, rfl⟩
abbrev main_v118 : Ref sig .tc := ⟨.hbm, 215, rfl⟩
abbrev main_v119 : Ref sig .tc := ⟨.hbm, 216, rfl⟩
abbrev main_v120 : Ref sig .tc := ⟨.hbm, 217, rfl⟩
abbrev main_v121 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_v125 : Ref sig .tc := ⟨.hbm, 222, rfl⟩
abbrev main_v126 : Ref sig .tc := ⟨.hbm, 223, rfl⟩
abbrev main_c_20 : Ref sig .tc := ⟨.hbm, 224, rfl⟩
abbrev main_v127 : Ref sig .tc := ⟨.hbm, 225, rfl⟩
abbrev main_v128 : Ref sig .tc := ⟨.hbm, 226, rfl⟩
abbrev main_cst_21 : Ref sig .tc := ⟨.hbm, 227, rfl⟩
abbrev main_call14_v0 : Ref sig .tc := ⟨.hbm, 228, rfl⟩
abbrev main_call14_v1 : Ref sig .tc := ⟨.hbm, 229, rfl⟩
abbrev main_v129 : Ref sig .tc := ⟨.hbm, 230, rfl⟩
abbrev main_cst_22 : Ref sig .tc := ⟨.hbm, 231, rfl⟩
abbrev main_v130 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_call15_v0 : Ref sig .tc := ⟨.hbm, 238, rfl⟩
abbrev main_call15_v1 : Ref sig .tc := ⟨.hbm, 239, rfl⟩
abbrev main_call15_cst : Ref sig .tc := ⟨.hbm, 240, rfl⟩
abbrev main_call15_v2 : Ref sig .tc := ⟨.hbm, 241, rfl⟩
abbrev main_call15_v3 : Ref sig .tc := ⟨.hbm, 242, rfl⟩
abbrev main_call15_cst_0 : Ref sig .tc := ⟨.hbm, 243, rfl⟩
abbrev main_call15_v4 : Ref sig .tc := ⟨.hbm, 244, rfl⟩
abbrev main_call15_v5 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_v144 : Ref sig .tc := ⟨.hbm, 254, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  bcast_S_S8192x2 : S_.BroadcastsInDim S8192x2 (![] : Fin 0 → Fin S8192x2.rank)
  reducesTo_S8192x2_S8192_d1 : S8192x2.ReducesTo [1] S8192
  h_S_ : 0 < S_.numel
  slices_S8x4096x1024_S1x4096x1024_0_0_0 : S8x4096x1024.Slices ![0, 0, 0] S1x4096x1024
  shapeCasts_S1x4096x1024_S4096x1024 : S1x4096x1024.ShapeCasts S4096x1024
  slices_S8192x4096_S8192x2048_0_0 : S8192x4096.Slices ![0, 0] S8192x2048
  slices_S8192x4096_S8192x2048_0_2048 : S8192x4096.Slices ![0, 2048] S8192x2048
  bcast_S_S8192x2048 : S_.BroadcastsInDim S8192x2048 (![] : Fin 0 → Fin S8192x2048.rank)
  slices_S8x1024x2048_S1x1024x2048_0_0_0 : S8x1024x2048.Slices ![0, 0, 0] S1x1024x2048
  shapeCasts_S1x1024x2048_S1024x2048 : S1x1024x2048.ShapeCasts S1024x2048
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  slices_S8x4096x1024_S1x4096x1024_1_0_0 : S8x4096x1024.Slices ![1, 0, 0] S1x4096x1024
  slices_S8x1024x2048_S1x1024x2048_1_0_0 : S8x1024x2048.Slices ![1, 0, 0] S1x1024x2048
  slices_S8x4096x1024_S1x4096x1024_2_0_0 : S8x4096x1024.Slices ![2, 0, 0] S1x4096x1024
  slices_S8x1024x2048_S1x1024x2048_2_0_0 : S8x1024x2048.Slices ![2, 0, 0] S1x1024x2048
  slices_S8x4096x1024_S1x4096x1024_3_0_0 : S8x4096x1024.Slices ![3, 0, 0] S1x4096x1024
  slices_S8x1024x2048_S1x1024x2048_3_0_0 : S8x1024x2048.Slices ![3, 0, 0] S1x1024x2048
  slices_S8x4096x1024_S1x4096x1024_4_0_0 : S8x4096x1024.Slices ![4, 0, 0] S1x4096x1024
  slices_S8x1024x2048_S1x1024x2048_4_0_0 : S8x1024x2048.Slices ![4, 0, 0] S1x1024x2048
  slices_S8x4096x1024_S1x4096x1024_5_0_0 : S8x4096x1024.Slices ![5, 0, 0] S1x4096x1024
  slices_S8x1024x2048_S1x1024x2048_5_0_0 : S8x1024x2048.Slices ![5, 0, 0] S1x1024x2048
  slices_S8x4096x1024_S1x4096x1024_6_0_0 : S8x4096x1024.Slices ![6, 0, 0] S1x4096x1024
  slices_S8x1024x2048_S1x1024x2048_6_0_0 : S8x1024x2048.Slices ![6, 0, 0] S1x1024x2048
  slices_S8x4096x1024_S1x4096x1024_7_0_0 : S8x4096x1024.Slices ![7, 0, 0] S1x4096x1024
  slices_S8x1024x2048_S1x1024x2048_7_0_0 : S8x1024x2048.Slices ![7, 0, 0] S1x1024x2048
  dot_S8192x1024_S4096x1024_S8192x4096_1_1_0_0_n_n_wf : DotDims.WF S8192x1024 S4096x1024 S8192x4096 [1] [1] [0] [0] [] []
  dot_S8192x2048_S1024x2048_S8192x1024_1_1_0_0_n_n_wf : DotDims.WF S8192x2048 S1024x2048 S8192x1024 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf
def dot_S8192x2048_S1024x2048_S8192x1024_1_1_0_0_n_n : DotDims S8192x2048 S1024x2048 S8192x1024 where
  lhsContracting := [1]
  rhsContracting := [1]
  lhsNonContracting := [0]
  rhsNonContracting := [0]
  lhsBatch := []
  rhsBatch := []
  wf := dot_S8192x2048_S1024x2048_S8192x1024_1_1_0_0_n_n_wf

class Facts : Prop extends Facts₀ where

variable [Facts]
-- ==== Proof.Experts.lean ====
/-
  The function both programs compute, entry by entry over the extended reals.

  A token `t` (a row of `X`, 1024 entries) is sent through all eight experts. Expert `e` projects it with the 4096 rows of
  its stacked matrix `G e` (`proj`): rows 0–2047 are the gate, rows 2048–4095 the up projection. The hidden vector is
  silu(gate) · up, entry by entry, with silu(x) = x · logistic x (`act`); the expert's output at column `h` is the hidden
  vector against row `h` of `D e` (`down`). Token `t` weighs expert `e` by the sum of its routing weights `W t k` over the
  slots `k` whose routed id `I t k` is `e` (`weight`). The result is the running sum over the experts in the order 0, 1, …, 7,
  started from zero (`upTo`, `moe`): both programs add in this order, so no law of the extended reals beyond the definitions
  of the operations is needed to compare them.
-/
import Idealize.ShloMosaic.PureOps.Ideal
import Idealize.ShloMosaic.PureOps.Ideal.Laws
import Idealize.ShloMosaic.Lib.ValueIdx

noncomputable section

namespace Cert.Experts

open Idealize.ShloMosaic Idealize.ShloMosaic.ValueIdx

variable (X : (⟨2, ![8192, 1024]⟩ : Shape).Idx → EReal) (W : (⟨2, ![8192, 2]⟩ : Shape).Idx → EReal)
  (I : (⟨2, ![8192, 2]⟩ : Shape).Idx → BitVec 32) (G : (⟨3, ![8, 4096, 1024]⟩ : Shape).Idx → EReal)
  (D : (⟨3, ![8, 1024, 2048]⟩ : Shape).Idx → EReal)

/-- The float zero both programs start their sums from and select where a slot is routed elsewhere. -/
abbrev zero : EReal := Ideal.ofBits .f32 0x00000000#32

/-- Row `r` of expert `e`'s stacked projection applied to token `t`. -/
def proj (e : Fin 8) (t : Fin 8192) (r : Fin 4096) : EReal := ∑ j : Fin 1024, X (ix2 t j) * G (ix3 e r j)

/-- Hidden unit `f`'s gate row and up row in the stacked projection. -/
abbrev gateRow (f : Fin 2048) : Fin 4096 := ⟨f.val, by have := f.isLt; omega⟩
abbrev upRow (f : Fin 2048) : Fin 4096 := ⟨2048 + f.val, by have := f.isLt; omega⟩

/-- The hidden vector: silu(gate) · up, with silu(x) = x · logistic x. -/
def act (e : Fin 8) (t : Fin 8192) (f : Fin 2048) : EReal :=
  proj X G e t (gateRow f) * Ideal.logistic (proj X G e t (gateRow f)) * proj X G e t (upRow f)

/-- Expert `e`'s output for token `t` at column `h`. -/
def down (e : Fin 8) (t : Fin 8192) (h : Fin 1024) : EReal := ∑ f : Fin 2048, act X G e t f * D (ix3 e h f)

/-- Token `t`'s combine weight for expert `e`: its routing weights over the slots routed to `e`. -/
def weight (e : Fin 8) (t : Fin 8192) : EReal :=
  ∑ k : Fin 2, Scalar.select (IntOp.cmpi .eq (I (ix2 t k)) (BitVec.ofNat 32 e.val)) (W (ix2 t k)) zero

/-- Expert `e`'s weighted contribution. -/
def term (e : Fin 8) (t : Fin 8192) (h : Fin 1024) : EReal := weight W I e t * down X G D e t h

/-- The running sum over experts 0, …, n, from zero, in that order. -/
def upTo : (n : ℕ) → n < 8 → Fin 8192 → Fin 1024 → EReal
  | 0, hn, t, h => zero + term X W I G D ⟨0, hn⟩ t h
  | n + 1, hn, t, h => upTo n (Nat.lt_of_succ_lt hn) t h + term X W I G D ⟨n + 1, hn⟩ t h

/-- The result: all eight experts. -/
def moe (t : Fin 8192) (h : Fin 1024) : EReal := upTo X W I G D 7 (by decide) t h

theorem upTo_zero (hn : 0 < 8) (t : Fin 8192) (h : Fin 1024) :
    upTo X W I G D 0 hn t h = zero + term X W I G D ⟨0, hn⟩ t h := rfl

theorem upTo_succ (n : ℕ) (hn : n + 1 < 8) (t : Fin 8192) (h : Fin 1024) :
    upTo X W I G D (n + 1) hn t h = upTo X W I G D n (Nat.lt_of_succ_lt hn) t h + term X W I G D ⟨n + 1, hn⟩ t h := rfl

/-- The running sum does not depend on how its index and token are written. -/
theorem upTo_congr {n n' : ℕ} (en : n = n') (hn : n < 8) (hn' : n' < 8) {t t' : Fin 8192} (et : t = t') (h : Fin 1024) :
    upTo X W I G D n hn t h = upTo X W I G D n' hn' t' h := by
  subst en; subst et; rfl

/-- The float one the host spells the logistic function with denotes 1. -/
theorem ofBits_one_f32 : Ideal.ofBits .f32 0x3F800000#32 = 1 := by
  simp [Ideal.ofBits, Ideal.ieee, -EReal.coe_mul]; norm_num

/-- The host's spelling of the logistic function, 1 / (1 + exp (−x)) with the host's divide, exponential and negation,
    is the logistic function. -/
theorem host_logistic (x : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) x))) = Ideal.logistic x := by
  rw [ofBits_one_f32]; rfl

end Cert.Experts

end
-- ==== Proof.HostSum.lean ====
/-
  The host program, expert by expert, is the specification's running sum.

  For each expert e = 0, …, 7 the host program computes one summand, always by the same steps and with e appearing
  only as a literal: it cuts slab e out of the stacked gate/up matrices G (a [1, 4096, 1024] block at offset (e, 0, 0)),
  drops the unit axis, and contracts every token's 1024 entries against the slab's 4096 rows; the first 2048 columns of
  that product are the gate values and the last 2048 the up values; the hidden vector is gate · (1 / (1 + exp (−gate))) · up,
  entry by entry, and 1 / (1 + exp (−x)) with the host's divide, exponential and negation is the logistic function, so this
  is silu(gate) · up; the hidden vector is contracted over its 2048 units against slab e of the down matrices D; and the
  result is multiplied, token by token, by the combine weight — the sum over the two routing slots of the routing weight
  where the slot's id equals e and of the float zero elsewhere, started from the float zero, which as an extended real is 0
  and disappears. Read at token t and column h each of these steps is one line: a slice reads its operand at the shifted
  index, dropping a unit axis keeps the row-major position, a broadcast reads the one entry it repeats, a contraction over
  one axis is the sum over that axis' coordinate. Chained, the summand at (t, h) is literally the specification's
  weight W I e t * down X G D e t h (hostProj_apply, hostAct_apply, hostWeight_apply, expert_apply), for a VARIABLE
  expert e: nothing in the reading depends on which expert it is beyond e < 8, which keeps the slab inside the stack.

  The program then adds the eight summands to a zero splat in the order 0, 1, …, 7. The specification adds its terms in
  the same order from the same zero word, so the two running sums agree step by step (hostUpTo_apply, by induction on the
  number of experts added so far) and no law of the extended reals is used. The composed term of the program's run is,
  after unfolding the definitions below, syntactically that running sum at n = 7 (result_chain), which gives result_eq.
-/
import proofs.«137442_j44848048505292_1_alg».proof.Proof.HostRun
import proofs.«137442_j44848048505292_1_alg».proof.Proof.Experts
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The layout operations at an index -/

/-- Slab e of the stacked gate/up matrices lies inside the stack: e + 1 ≤ 8 on the expert axis, the other two axes whole. -/
theorem slabG (e : Fin 8) : S8x4096x1024.Slices ![e.val, 0, 0] S1x4096x1024 :=
  ⟨rfl, fun a => match a with
    | ⟨0, _⟩ => by have := e.isLt; show e.val + 1 ≤ 8; omega
    | ⟨1, _⟩ => by show 0 + 4096 ≤ 4096; omega
    | ⟨2, _⟩ => by show 0 + 1024 ≤ 1024; omega⟩

/-- Slab e of the stacked down matrices lies inside the stack. -/
theorem slabD (e : Fin 8) : S8x1024x2048.Slices ![e.val, 0, 0] S1x1024x2048 :=
  ⟨rfl, fun a => match a with
    | ⟨0, _⟩ => by have := e.isLt; show e.val + 1 ≤ 8; omega
    | ⟨1, _⟩ => by show 0 + 1024 ≤ 1024; omega
    | ⟨2, _⟩ => by show 0 + 2048 ≤ 2048; omega⟩

/-- A scalar broadcast to any shape reads the scalar everywhere. -/
theorem bcast_scalar {α : Type} {t : Shape} (h : S_.BroadcastsInDim t (![] : Fin 0 → Fin t.rank)) (x : S_.Idx → α) (i : t.Idx) :
    broadcastInDim t ![] h x i = x ix0 :=
  broadcastInDim_apply _ h x i ix0 (fun a => a.elim0)

/-- Slab e of the stacked gate/up matrices with its unit axis dropped: entry (r, j) is G (e, r, j). -/
theorem slabG_apply (e : Fin 8) (h : S8x4096x1024.Slices ![e.val, 0, 0] S1x4096x1024) (x : S8x4096x1024.Idx → EReal)
    (r : Fin 4096) (j : Fin 1024) :
    shapeCast S4096x1024 (extractStridedSlice S1x4096x1024 ![e.val, 0, 0] x h) shapeCasts_S1x4096x1024_S4096x1024 (ix2 r j)
      = x (ix3 e r j) := by
  refine (shapeCast_apply _ shapeCasts_S1x4096x1024_S4096x1024 (ix2 r j) (ix3 (⟨0, Nat.one_pos⟩ : Fin 1) r j) ?_).trans ?_
  · rewrite [Shape.rowMajor_val_three, Shape.rowMajor_val_two]
    show (0 * 4096 + r.val) * 1024 + j.val = r.val * 1024 + j.val
    omega
  · exact extractStridedSlice_apply ![e.val, 0, 0] x h (ix3 (⟨0, Nat.one_pos⟩ : Fin 1) r j) (ix3 e r j) (fun a => match a with
      | ⟨0, _⟩ => by show e.val = e.val + 0; omega
      | ⟨1, _⟩ => by show r.val = 0 + r.val; omega
      | ⟨2, _⟩ => by show j.val = 0 + j.val; omega)

/-- Slab e of the stacked down matrices with its unit axis dropped: entry (h, f) is D (e, h, f). -/
theorem slabD_apply (e : Fin 8) (hs : S8x1024x2048.Slices ![e.val, 0, 0] S1x1024x2048) (x : S8x1024x2048.Idx → EReal)
    (h : Fin 1024) (f : Fin 2048) :
    shapeCast S1024x2048 (extractStridedSlice S1x1024x2048 ![e.val, 0, 0] x hs) shapeCasts_S1x1024x2048_S1024x2048 (ix2 h f)
      = x (ix3 e h f) := by
  refine (shapeCast_apply _ shapeCasts_S1x1024x2048_S1024x2048 (ix2 h f) (ix3 (⟨0, Nat.one_pos⟩ : Fin 1) h f) ?_).trans ?_
  · rewrite [Shape.rowMajor_val_three, Shape.rowMajor_val_two]
    show (0 * 1024 + h.val) * 2048 + f.val = h.val * 2048 + f.val
    omega
  · exact extractStridedSlice_apply ![e.val, 0, 0] x hs (ix3 (⟨0, Nat.one_pos⟩ : Fin 1) h f) (ix3 e h f) (fun a => match a with
      | ⟨0, _⟩ => by show e.val = e.val + 0; omega
      | ⟨1, _⟩ => by show h.val = 0 + h.val; omega
      | ⟨2, _⟩ => by show f.val = 0 + f.val; omega)

/-- The first 2048 columns of the stacked projection are the gate rows. -/
theorem gateCols_apply (y : S8192x4096.Idx → EReal) (t : Fin 8192) (f : Fin 2048) :
    extractStridedSlice S8192x2048 ![0, 0] y slices_S8192x4096_S8192x2048_0_0 (ix2 t f) = y (ix2 t (Cert.Experts.gateRow f)) :=
  extractStridedSlice_apply ![0, 0] y slices_S8192x4096_S8192x2048_0_0 (ix2 t f) (ix2 t (Cert.Experts.gateRow f)) (fun a => match a with
    | ⟨0, _⟩ => by show t.val = 0 + t.val; omega
    | ⟨1, _⟩ => by show f.val = 0 + f.val; omega)

/-- The last 2048 columns are the up rows. -/
theorem upCols_apply (y : S8192x4096.Idx → EReal) (t : Fin 8192) (f : Fin 2048) :
    extractStridedSlice S8192x2048 ![0, 2048] y slices_S8192x4096_S8192x2048_0_2048 (ix2 t f) = y (ix2 t (Cert.Experts.upRow f)) :=
  extractStridedSlice_apply ![0, 2048] y slices_S8192x4096_S8192x2048_0_2048 (ix2 t f) (ix2 t (Cert.Experts.upRow f)) (fun a => match a with
    | ⟨0, _⟩ => by show t.val = 0 + t.val; omega
    | ⟨1, _⟩ => by show 2048 + f.val = 2048 + f.val; omega)

/-- A per-token column broadcast along the hidden axis reads the token's entry. -/
theorem tokenCol_apply {α : Type} (v : S8192.Idx → α) (t : Fin 8192) (h : Fin 1024) :
    broadcastInDim S8192x1024 ![0, 1] bcast_S8192x1_S8192x1024_0_1 (broadcastInDim S8192x1 ![0] bcast_S8192_S8192x1_0 v) (ix2 t h)
      = v (ix1 t) := by
  refine (broadcastInDim_apply _ bcast_S8192x1_S8192x1024_0_1 _ (ix2 t h) (ix2 t (⟨0, Nat.one_pos⟩ : Fin 1)) (fun a => match a with
    | ⟨0, _⟩ => by show t.val = if (8192 : Nat) = 1 then 0 else t.val; rw [if_neg (by decide)]
    | ⟨1, _⟩ => by show 0 = if (1 : Nat) = 1 then 0 else h.val; rw [if_pos rfl])).trans ?_
  exact broadcastInDim_apply _ bcast_S8192_S8192x1_0 v (ix2 t (⟨0, Nat.one_pos⟩ : Fin 1)) (ix1 t) (fun a => match a with
    | ⟨0, _⟩ => by show t.val = if (8192 : Nat) = 1 then 0 else t.val; rw [if_neg (by decide)])

/-! ## The two contractions at an index -/

local notation "dotGU" => dot_S8192x1024_S4096x1024_S8192x4096_1_1_0_0_n_n
local notation "dotDown" => dot_S8192x2048_S1024x2048_S8192x1024_1_1_0_0_n_n

theorem dotGU_lhs0 (i : S8192x4096.Idx) (q : (dotGU).contr.Idx) : ((dotGU).lhsIdx i q 0).val = (i 0).val := by
  unfold DotDims.lhsIdx
  rw [dif_neg (show ¬(0 : Fin S8192x1024.rank) ∈ (dotGU).lhsBatch by decide), dif_pos (show (0 : Fin S8192x1024.rank) ∈ (dotGU).lhsNonContracting by decide)]
  rfl
theorem dotGU_lhs1 (i : S8192x4096.Idx) (q : (dotGU).contr.Idx) : ((dotGU).lhsIdx i q 1).val = (q ⟨0, by decide⟩).val :=
  (dotGU).lhsIdx_val_of_single rfl i q
theorem dotGU_rhs0 (i : S8192x4096.Idx) (q : (dotGU).contr.Idx) : ((dotGU).rhsIdx i q 0).val = (i 1).val := by
  unfold DotDims.rhsIdx
  rw [dif_neg (show ¬(0 : Fin S4096x1024.rank) ∈ (dotGU).rhsBatch by decide), dif_pos (show (0 : Fin S4096x1024.rank) ∈ (dotGU).rhsNonContracting by decide)]
  rfl
theorem dotGU_rhs1 (i : S8192x4096.Idx) (q : (dotGU).contr.Idx) : ((dotGU).rhsIdx i q 1).val = (q ⟨0, by decide⟩).val :=
  (dotGU).rhsIdx_val_of_single rfl i q

/-- The gate/up contraction: row t of the left operand against row r of the right one, over the 1024 hidden entries. -/
theorem dotGU_apply (l : S8192x1024.Idx → EReal) (r : S4096x1024.Idx → EReal) (t : Fin 8192) (q : Fin 4096) :
    Host.dotGeneral (F := Ideal) (φ₁ := .f32) (φ₂ := .f32) dotGU none l r (ix2 t q) = ∑ j : Fin 1024, l (ix2 t j) * r (ix2 q j) := by
  simp only [Host.dotGeneral]
  rw [Ideal.dotGeneral_apply, ← Equiv.sum_comp (ValueIdx.contrEquiv1 dotGU 1024 rfl rfl).symm]
  refine Finset.sum_congr rfl fun k _ => ?_
  have hk := ValueIdx.contrEquiv1_symm_val dotGU 1024 rfl rfl k
  have el : (dotGU).lhsIdx (ix2 t q) ((ValueIdx.contrEquiv1 dotGU 1024 rfl rfl).symm k) = ix2 t k := funext fun a => Fin.ext (by
    match a with
    | ⟨0, _⟩ => exact dotGU_lhs0 _ _
    | ⟨1, _⟩ => exact (dotGU_lhs1 _ _).trans hk)
  have er : (dotGU).rhsIdx (ix2 t q) ((ValueIdx.contrEquiv1 dotGU 1024 rfl rfl).symm k) = ix2 q k := funext fun a => Fin.ext (by
    match a with
    | ⟨0, _⟩ => exact dotGU_rhs0 _ _
    | ⟨1, _⟩ => exact (dotGU_rhs1 _ _).trans hk)
  rw [el, er]

theorem dotDown_lhs0 (i : S8192x1024.Idx) (q : (dotDown).contr.Idx) : ((dotDown).lhsIdx i q 0).val = (i 0).val := by
  unfold DotDims.lhsIdx
  rw [dif_neg (show ¬(0 : Fin S8192x2048.rank) ∈ (dotDown).lhsBatch by decide), dif_pos (show (0 : Fin S8192x2048.rank) ∈ (dotDown).lhsNonContracting by decide)]
  rfl
theorem dotDown_lhs1 (i : S8192x1024.Idx) (q : (dotDown).contr.Idx) : ((dotDown).lhsIdx i q 1).val = (q ⟨0, by decide⟩).val :=
  (dotDown).lhsIdx_val_of_single rfl i q
theorem dotDown_rhs0 (i : S8192x1024.Idx) (q : (dotDown).contr.Idx) : ((dotDown).rhsIdx i q 0).val = (i 1).val := by
  unfold DotDims.rhsIdx
  rw [dif_neg (show ¬(0 : Fin S1024x2048.rank) ∈ (dotDown).rhsBatch by decide), dif_pos (show (0 : Fin S1024x2048.rank) ∈ (dotDown).rhsNonContracting by decide)]
  rfl
theorem dotDown_rhs1 (i : S8192x1024.Idx) (q : (dotDown).contr.Idx) : ((dotDown).rhsIdx i q 1).val = (q ⟨0, by decide⟩).val :=
  (dotDown).rhsIdx_val_of_single rfl i q

/-- The down contraction: row t of the left operand against row h of the right one, over the 2048 hidden units. -/
theorem dotDown_apply (l : S8192x2048.Idx → EReal) (r : S1024x2048.Idx → EReal) (t : Fin 8192) (h : Fin 1024) :
    Host.dotGeneral (F := Ideal) (φ₁ := .f32) (φ₂ := .f32) dotDown none l r (ix2 t h) = ∑ f : Fin 2048, l (ix2 t f) * r (ix2 h f) := by
  simp only [Host.dotGeneral]
  rw [Ideal.dotGeneral_apply, ← Equiv.sum_comp (ValueIdx.contrEquiv1 dotDown 2048 rfl rfl).symm]
  refine Finset.sum_congr rfl fun k _ => ?_
  have hk := ValueIdx.contrEquiv1_symm_val dotDown 2048 rfl rfl k
  have el : (dotDown).lhsIdx (ix2 t h) ((ValueIdx.contrEquiv1 dotDown 2048 rfl rfl).symm k) = ix2 t k := funext fun a => Fin.ext (by
    match a with
    | ⟨0, _⟩ => exact dotDown_lhs0 _ _
    | ⟨1, _⟩ => exact (dotDown_lhs1 _ _).trans hk)
  have er : (dotDown).rhsIdx (ix2 t h) ((ValueIdx.contrEquiv1 dotDown 2048 rfl rfl).symm k) = ix2 h k := funext fun a => Fin.ext (by
    match a with
    | ⟨0, _⟩ => exact dotDown_rhs0 _ _
    | ⟨1, _⟩ => exact (dotDown_rhs1 _ _).trans hk)
  rw [el, er]

/-! ## The sum over the two routing slots -/

/-- The host's sum along the slot axis: the initial value plus the two slots' entries. -/
theorem slotSum_apply (y : S8192x2.Idx → EReal) (init : S_.Idx → EReal) (t : Fin 8192) :
    Host.reduceAdd (F := Ideal) (φ := .f32) y init reducesTo_S8192x2_S8192_d1 h_S_ (ix1 t) = init ix0 + ∑ k : Fin 2, y (ix2 t k) := by
  simp only [Host.reduceAdd, Ideal.hostReduceAdd_def]
  rw [Ideal.hostReduceAdd_single reducesTo_S8192x2_S8192_d1 (by decide)]
  refine congr (congrArg _ (congrArg init (eq_ix0 _))) (Finset.sum_congr rfl fun k _ => ?_)
  exact congrArg y (funext fun a => Fin.ext (by match a with | ⟨0, _⟩ => rfl | ⟨1, _⟩ => rfl))

/-! ## One expert's summand of the host program -/

variable (X : S8192x1024.Idx → EReal) (W : S8192x2.Idx → EReal) (I : S8192x2.Idx → BitVec 32)
  (G : S8x4096x1024.Idx → EReal) (D : S8x1024x2048.Idx → EReal)

/-- The host's stacked projection of every token by expert e: the tokens against the rows of slab e of G. -/
def hostProj (e : Fin 8) : S8192x4096.Idx → EReal :=
  Host.dotGeneral (F := Ideal) (φ₁ := .f32) (φ₂ := .f32) dotGU none X
    (shapeCast _ (extractStridedSlice S1x4096x1024 ![e.val, 0, 0] G (slabG e)) shapeCasts_S1x4096x1024_S4096x1024)

/-- The host's hidden vectors of expert e: gate times 1 / (1 + exp (−gate)) times up, entry by entry. -/
def hostAct (e : Fin 8) : S8192x2048.Idx → EReal :=
  mulf (F := Ideal) (φ := .f32)
    (mulf (F := Ideal) (φ := .f32) (extractStridedSlice S8192x2048 ![0, 0] (hostProj X G e) slices_S8192x4096_S8192x2048_0_0)
      (Host.divf (F := Ideal) (φ := .f32) (broadcastInDim S8192x2048 ![] bcast_S_S8192x2048 (constant (F := Ideal) S_ .f32 0x3F800000#32))
        (addf (F := Ideal) (φ := .f32) (broadcastInDim S8192x2048 ![] bcast_S_S8192x2048 (constant (F := Ideal) S_ .f32 0x3F800000#32))
          (Host.exp (F := Ideal) (φ := .f32) (Host.negf (F := Ideal) (φ := .f32)
            (extractStridedSlice S8192x2048 ![0, 0] (hostProj X G e) slices_S8192x4096_S8192x2048_0_0))))))
    (extractStridedSlice S8192x2048 ![0, 2048] (hostProj X G e) slices_S8192x4096_S8192x2048_0_2048)

/-- The host's combine weights for expert e: per token, the sum over the two slots of the routing weight where the slot
    is routed to e and the float zero elsewhere. -/
def hostWeight (e : Fin 8) : S8192.Idx → EReal :=
  Host.reduceAdd (F := Ideal) (φ := .f32)
    (select (cmpi .eq I (broadcastInDim S8192x2 ![] bcast_S_S8192x2 (constantI S_ 32 (BitVec.ofNat 32 e.val)))) W
      (broadcastInDim S8192x2 ![] bcast_S_S8192x2 (id (constant (F := Ideal) S_ .f32 0x00000000#32))))
    (constant (F := Ideal) S_ .f32 0x00000000#32) reducesTo_S8192x2_S8192_d1 h_S_

/-- Expert e's summand: its combine weights, spread along the hidden axis, times its hidden vectors against slab e of D. -/
def expert (e : Fin 8) : S8192x1024.Idx → EReal :=
  mulf (F := Ideal) (φ := .f32)
    (broadcastInDim S8192x1024 ![0, 1] bcast_S8192x1_S8192x1024_0_1 (broadcastInDim S8192x1 ![0] bcast_S8192_S8192x1_0 (hostWeight W I e)))
    (Host.dotGeneral (F := Ideal) (φ₁ := .f32) (φ₂ := .f32) dotDown none (hostAct X G e)
      (shapeCast _ (extractStridedSlice S1x1024x2048 ![e.val, 0, 0] D (slabD e)) shapeCasts_S1x1024x2048_S1024x2048))

theorem hostProj_apply (e : Fin 8) (t : Fin 8192) (r : Fin 4096) : hostProj X G e (ix2 t r) = Cert.Experts.proj X G e t r := by
  unfold hostProj Cert.Experts.proj
  rw [dotGU_apply]
  exact Finset.sum_congr rfl fun j _ => congrArg (X (ix2 t j) * ·) (slabG_apply e (slabG e) G r j)

theorem hostAct_apply (e : Fin 8) (t : Fin 8192) (f : Fin 2048) : hostAct X G e (ix2 t f) = Cert.Experts.act X G e t f := by
  unfold hostAct Cert.Experts.act
  show extractStridedSlice S8192x2048 ![0, 0] (hostProj X G e) slices_S8192x4096_S8192x2048_0_0 (ix2 t f)
      * FloatOps.hostDivf (F := Ideal) (φ := .f32)
          (broadcastInDim S8192x2048 ![] bcast_S_S8192x2048 (constant (F := Ideal) S_ .f32 0x3F800000#32) (ix2 t f))
          (FloatOps.addf (F := Ideal) (φ := .f32)
            (broadcastInDim S8192x2048 ![] bcast_S_S8192x2048 (constant (F := Ideal) S_ .f32 0x3F800000#32) (ix2 t f))
            (FloatOps.hostUnary (F := Ideal) (φ := .f32) .exp (FloatOps.hostNegf (F := Ideal) (φ := .f32)
              (extractStridedSlice S8192x2048 ![0, 0] (hostProj X G e) slices_S8192x4096_S8192x2048_0_0 (ix2 t f)))))
      * extractStridedSlice S8192x2048 ![0, 2048] (hostProj X G e) slices_S8192x4096_S8192x2048_0_2048 (ix2 t f) = _
  rw [gateCols_apply, upCols_apply, bcast_scalar, hostProj_apply, hostProj_apply]
  show _ * FloatOps.hostDivf (F := Ideal) (φ := .f32) (Ideal.ofBits .f32 0x3F800000#32)
      (FloatOps.addf (F := Ideal) (φ := .f32) (Ideal.ofBits .f32 0x3F800000#32) _) * _ = _
  rw [Cert.Experts.host_logistic]

theorem hostWeight_apply (e : Fin 8) (t : Fin 8192) : hostWeight W I e (ix1 t) = Cert.Experts.weight W I e t := by
  unfold hostWeight Cert.Experts.weight
  rw [slotSum_apply]
  show Ideal.ofBits .f32 0x00000000#32 + _ = _
  rw [Ideal.ofBits_zero_f32, zero_add]
  refine Finset.sum_congr rfl fun k _ => ?_
  show Scalar.select (IntOp.cmpi .eq (I (ix2 t k))
      (broadcastInDim S8192x2 ![] bcast_S_S8192x2 (constantI S_ 32 (BitVec.ofNat 32 e.val)) (ix2 t k))) (W (ix2 t k))
      (broadcastInDim S8192x2 ![] bcast_S_S8192x2 (id (constant (F := Ideal) S_ .f32 0x00000000#32)) (ix2 t k)) = _
  rw [bcast_scalar, bcast_scalar]
  rfl

/-- One summand of the host program is the specification's term. -/
theorem expert_apply (e : Fin 8) (t : Fin 8192) (h : Fin 1024) : expert X W I G D e (ix2 t h) = Cert.Experts.term X W I G D e t h := by
  unfold expert Cert.Experts.term Cert.Experts.down
  show broadcastInDim S8192x1024 ![0, 1] bcast_S8192x1_S8192x1024_0_1 (broadcastInDim S8192x1 ![0] bcast_S8192_S8192x1_0 (hostWeight W I e)) (ix2 t h)
      * Host.dotGeneral (F := Ideal) (φ₁ := .f32) (φ₂ := .f32) dotDown none (hostAct X G e)
          (shapeCast _ (extractStridedSlice S1x1024x2048 ![e.val, 0, 0] D (slabD e)) shapeCasts_S1x1024x2048_S1024x2048) (ix2 t h) = _
  rw [tokenCol_apply, hostWeight_apply, dotDown_apply]
  refine congrArg (_ * ·) (Finset.sum_congr rfl fun f _ => ?_)
  rw [hostAct_apply, slabD_apply]

/-! ## The running sum over the experts -/

/-- The host's running sum over experts 0, …, n, from the zero splat, in that order. -/
def hostUpTo : (n : ℕ) → n < 8 → S8192x1024.Idx → EReal
  | 0, hn => addf (F := Ideal) (φ := .f32) (broadcastInDim S8192x1024 ![] bcast_S_S8192x1024 (constant (F := Ideal) S_ .f32 0x00000000#32))
      (expert X W I G D ⟨0, hn⟩)
  | n + 1, hn => addf (F := Ideal) (φ := .f32) (hostUpTo n (Nat.lt_of_succ_lt hn)) (expert X W I G D ⟨n + 1, hn⟩)

theorem hostUpTo_apply (n : ℕ) (hn : n < 8) (t : Fin 8192) (h : Fin 1024) :
    hostUpTo X W I G D n hn (ix2 t h) = Cert.Experts.upTo X W I G D n hn t h := by
  induction n with
  | zero =>
    show broadcastInDim S8192x1024 ![] bcast_S_S8192x1024 (constant (F := Ideal) S_ .f32 0x00000000#32) (ix2 t h)
        + expert X W I G D ⟨0, hn⟩ (ix2 t h) = _
    rw [bcast_scalar, expert_apply]
    rfl
  | succ n ih =>
    show hostUpTo X W I G D n (Nat.lt_of_succ_lt hn) (ix2 t h) + expert X W I G D ⟨n + 1, hn⟩ (ix2 t h) = _
    rw [ih, expert_apply]
    rfl

/-! ## The program's result -/

/-- The composed term of the host program's run is its running sum over all eight experts: the two are the same term once
    the definitions above are unfolded (the literal e#32 is BitVec.ofNat 32 e, and a slab's side condition has one proof). -/
theorem result_chain (m : (ℓ : Loc nD τ sig) → Buf (Elt Ideal) ℓ) (c : Dev nD) :
    Cert.ReferenceIdeal.ValueP.res_main_v144 (F := Ideal) m c
      = hostUpTo (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) 7 (by decide) := by
  unfold Cert.ReferenceIdeal.ValueP.res_main_v144
  rfl

/-- The host program computes the mixture of experts: at token i 0 and column i 1 its result is the specification's
    running sum over the eight experts of weight times down projection. -/
theorem result_eq (m : (ℓ : Loc nD τ sig) → Buf (Elt Ideal) ℓ) (c : Dev nD) :
    Cert.ReferenceIdeal.ValueP.res_main_v144 (F := Ideal) m c
      = fun i => Cert.Experts.moe (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (i 0) (i 1) := by
  rw [result_chain]
  funext i
  exact (congrArg _ (eq_ix2 i)).trans (hostUpTo_apply _ _ _ _ _ 7 (by decide) (i 0) (i 1))

end Cert.ReferenceIdeal.RefValue

end
-- ==== Proof.Pieces.lean ====
/-
  What one grid point leaves in the accumulator and in the output block, as values.

  The body keeps its running sum in a scratch block carried from one grid point to the next, and copies it to the output
  block at every point. At a point whose expert coordinate is 0 the scratch is first stored with zeros and the sum is taken
  over that zero block; at every other point it is taken over what the point before left. In both cases the scratch ends
  holding the body's sum `k0_pay3` (cast to its own shape, `k0_pay1`) of the point's input blocks and the block it started
  from, and the output block ends holding the same.
-/
import proofs.«137442_j44848048505292_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Away from the first expert: the scratch, started from `xs0`, ends at the body's sum over `xs0`. -/
theorem sout_B (c : Dev nD) (i : grid0.Coords) (a2 : Memref sig .tc .vmem S256x1024 .bf16) (h2 : a2.IsWhole) (a3 : Memref sig .tc .vmem S256x2 .i32) (h3 : a3.IsWhole) (a4 : Memref sig .tc .vmem S256x2 .f32) (h4 : a4.IsWhole) (a5 : Memref sig .tc .vmem S1x2048x1024 .bf16) (h5 : a5.IsWhole) (a6 : Memref sig .tc .vmem S1x2048x1024 .bf16) (h6 : a6.IsWhole) (a7 : Memref sig .tc .vmem S1x1024x2048 .bf16) (h7 : a7.IsWhole) (a8 : Memref sig .tc .vmem S256x1024 .f32) (h8 : a8.IsWhole) (a9 : Memref sig .tc .vmem S256x1024 .f32) (h9 : a9.IsWhole) (hc : ¬cond0_0 i)
    (x0 : Vec F S256x1024 .bf16) (x1 : Vec F S256x2 .i32) (x2 : Vec F S256x2 .f32) (x3 : Vec F S1x2048x1024 .bf16) (x4 : Vec F S1x2048x1024 .bf16) (x5 : Vec F S1x1024x2048 .bf16) (xs0 : Vec F S256x1024 .f32) :
    sout0_B_0 c i a2 h2 a3 h3 a4 h4 a5 h5 a6 h6 a7 h7 a8 h8 a9 h9 hc x0 x1 x2 x3 x4 x5 xs0 = k0_pay1 (k0_pay3 i x0 x3 x4 x5 x1 x2 xs0) := by
  unfold sout0_B_0
  rw [View.read_writes_eq_canon _ _ _ (scover0_B_0 c i a2 h2 a3 h3 a4 h4 a5 h5 a6 h6 a7 h7 a8 h8 a9 h9 hc x0 x1 x2 x3 x4 x5 xs0)]
  unfold kernelRun0_B
  dsimp only
  sl_unfold_words
  rw [View.canon_unit_zero hz2]
  simp only [View.readAt_eq_ld, h2.read_unread, h3.read_unread, h4.read_unread, h5.read_unread, h6.read_unread, h7.read_unread, h9.read_unread,
    View.ld_unit_zero (S := S256x1024) hz2, View.ld_unit_zero (S := S256x2) hz2, View.ld_unit_zero (S := S1x2048x1024) hz3, View.ld_unit_zero (S := S1x1024x2048) hz3]

/-- At the first expert: the scratch is reset to the zero block `k0_pay2` and ends at the body's sum over it. -/
theorem sout_A (c : Dev nD) (i : grid0.Coords) (a2 : Memref sig .tc .vmem S256x1024 .bf16) (h2 : a2.IsWhole) (a3 : Memref sig .tc .vmem S256x2 .i32) (h3 : a3.IsWhole) (a4 : Memref sig .tc .vmem S256x2 .f32) (h4 : a4.IsWhole) (a5 : Memref sig .tc .vmem S1x2048x1024 .bf16) (h5 : a5.IsWhole) (a6 : Memref sig .tc .vmem S1x2048x1024 .bf16) (h6 : a6.IsWhole) (a7 : Memref sig .tc .vmem S1x1024x2048 .bf16) (h7 : a7.IsWhole) (a8 : Memref sig .tc .vmem S256x1024 .f32) (h8 : a8.IsWhole) (a9 : Memref sig .tc .vmem S256x1024 .f32) (h9 : a9.IsWhole) (hc : cond0_0 i)
    (x0 : Vec F S256x1024 .bf16) (x1 : Vec F S256x2 .i32) (x2 : Vec F S256x2 .f32) (x3 : Vec F S1x2048x1024 .bf16) (x4 : Vec F S1x2048x1024 .bf16) (x5 : Vec F S1x1024x2048 .bf16) :
    sout0_A_0 c i a2 h2 a3 h3 a4 h4 a5 h5 a6 h6 a7 h7 a8 h8 a9 h9 hc x0 x1 x2 x3 x4 x5 = k0_pay1 (k0_pay3 i x0 x3 x4 x5 x1 x2 k0_pay2) := by
  unfold sout0_A_0
  rw [View.read_writes_eq_canon _ _ _ (scover0_A_0 c i a2 h2 a3 h3 a4 h4 a5 h5 a6 h6 a7 h7 a8 h8 a9 h9 hc x0 x1 x2 x3 x4 x5)]
  unfold kernelRun0_A
  dsimp only
  sl_unfold_words
  rw [View.canon_cons_unit_zero (S := S256x1024) hz2, View.readCov_unit_zero (S := S256x1024) _ hz2]
  simp only [View.readAt_eq_ld, h2.read_unread, h3.read_unread, h4.read_unread, h5.read_unread, h6.read_unread, h7.read_unread, h9.read_unread,
    View.ld_unit_zero (S := S256x1024) hz2, View.ld_unit_zero (S := S256x2) hz2, View.ld_unit_zero (S := S1x2048x1024) hz3, View.ld_unit_zero (S := S1x1024x2048) hz3]

/-- A load of the whole block after stores the LAST of which covered it reads that store's payload. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

/-- Away from the first expert the output block ends holding what the scratch ends holding. -/
theorem out_B (c : Dev nD) (i : grid0.Coords) (a2 : Memref sig .tc .vmem S256x1024 .bf16) (h2 : a2.IsWhole) (a3 : Memref sig .tc .vmem S256x2 .i32) (h3 : a3.IsWhole) (a4 : Memref sig .tc .vmem S256x2 .f32) (h4 : a4.IsWhole) (a5 : Memref sig .tc .vmem S1x2048x1024 .bf16) (h5 : a5.IsWhole) (a6 : Memref sig .tc .vmem S1x2048x1024 .bf16) (h6 : a6.IsWhole) (a7 : Memref sig .tc .vmem S1x1024x2048 .bf16) (h7 : a7.IsWhole) (a8 : Memref sig .tc .vmem S256x1024 .f32) (h8 : a8.IsWhole) (a9 : Memref sig .tc .vmem S256x1024 .f32) (h9 : a9.IsWhole) (hc : ¬cond0_0 i)
    (x0 : Vec F S256x1024 .bf16) (x1 : Vec F S256x2 .i32) (x2 : Vec F S256x2 .f32) (x3 : Vec F S1x2048x1024 .bf16) (x4 : Vec F S1x2048x1024 .bf16) (x5 : Vec F S1x1024x2048 .bf16) (xs0 : Vec F S256x1024 .f32) :
    out0_B_6 c i a2 h2 a3 h3 a4 h4 a5 h5 a6 h6 a7 h7 a8 h8 a9 h9 hc x0 x1 x2 x3 x4 x5 xs0 = k0_pay1 (k0_pay3 i x0 x3 x4 x5 x1 x2 xs0) := by
  unfold out0_B_6
  rw [View.read_writes_eq_canon _ _ _ (cover0_B_6 c i a2 h2 a3 h3 a4 h4 a5 h5 a6 h6 a7 h7 a8 h8 a9 h9 hc x0 x1 x2 x3 x4 x5 xs0)]
  unfold kernelRun0_B
  dsimp only
  sl_unfold_words
  rw [View.canon_unit_zero hz2, readCov_cons_unit_zero (S := S256x1024) _ hz2]
  simp only [View.readAt_eq_ld, h2.read_unread, h3.read_unread, h4.read_unread, h5.read_unread, h6.read_unread, h7.read_unread, h9.read_unread,
    View.ld_unit_zero (S := S256x1024) hz2, View.ld_unit_zero (S := S256x2) hz2, View.ld_unit_zero (S := S1x2048x1024) hz3, View.ld_unit_zero (S := S1x1024x2048) hz3]

/-- At the first expert too. -/
theorem out_A (c : Dev nD) (i : grid0.Coords) (a2 : Memref sig .tc .vmem S256x1024 .bf16) (h2 : a2.IsWhole) (a3 : Memref sig .tc .vmem S256x2 .i32) (h3 : a3.IsWhole) (a4 : Memref sig .tc .vmem S256x2 .f32) (h4 : a4.IsWhole) (a5 : Memref sig .tc .vmem S1x2048x1024 .bf16) (h5 : a5.IsWhole) (a6 : Memref sig .tc .vmem S1x2048x1024 .bf16) (h6 : a6.IsWhole) (a7 : Memref sig .tc .vmem S1x1024x2048 .bf16) (h7 : a7.IsWhole) (a8 : Memref sig .tc .vmem S256x1024 .f32) (h8 : a8.IsWhole) (a9 : Memref sig .tc .vmem S256x1024 .f32) (h9 : a9.IsWhole) (hc : cond0_0 i)
    (x0 : Vec F S256x1024 .bf16) (x1 : Vec F S256x2 .i32) (x2 : Vec F S256x2 .f32) (x3 : Vec F S1x2048x1024 .bf16) (x4 : Vec F S1x2048x1024 .bf16) (x5 : Vec F S1x1024x2048 .bf16) :
    out0_A_6 c i a2 h2 a3 h3 a4 h4 a5 h5 a6 h6 a7 h7 a8 h8 a9 h9 hc x0 x1 x2 x3 x4 x5 = k0_pay1 (k0_pay3 i x0 x3 x4 x5 x1 x2 k0_pay2) := by
  unfold out0_A_6
  rw [View.read_writes_eq_canon _ _ _ (cover0_A_6 c i a2 h2 a3 h3 a4 h4 a5 h5 a6 h6 a7 h7 a8 h8 a9 h9 hc x0 x1 x2 x3 x4 x5)]
  unfold kernelRun0_A
  dsimp only
  sl_unfold_words
  rw [View.canon_unit_zero hz2, readCov_cons_unit_zero (S := S256x1024) _ hz2, View.readCov_unit_zero (S := S256x1024) _ hz2]
  simp only [View.readAt_eq_ld, h2.read_unread, h3.read_unread, h4.read_unread, h5.read_unread, h6.read_unread, h7.read_unread, h9.read_unread,
    View.ld_unit_zero (S := S256x1024) hz2, View.ld_unit_zero (S := S256x2) hz2, View.ld_unit_zero (S := S1x2048x1024) hz3, View.ld_unit_zero (S := S1x1024x2048) hz3]

end Cert.KernelIdeal.Pieces

end
-- ==== Proof.LibKeepdims.lean ====
/-
  A vector kept as a column, and a column laid along every column of a matrix, read at an index.

  A row reduction that keeps its axis (a row's maximum or sum, then subtracted from or divided into every entry of the
  row) is printed as a shape cast of the reduced vector [a] to a column [a, 1] followed by a broadcast of that column to
  [a, b]. At (p, c) the broadcast reads the column at (p, 0), which reads the vector at p.
-/
import Idealize.ShloMosaic.Lib.Pipeline.Value
import Idealize.ShloMosaic.Lib.ValueIdx

namespace Idealize.ShloMosaic.Keepdims

open Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid along every column of a matrix reads, at `(p, c)`, the vector at `p`. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Idealize.ShloMosaic.Keepdims
-- ==== Proof.Step.lean ====
/-
  What one grid point adds: the body's arithmetic read at one entry.

  At a grid point the body holds a block of 256 tokens `x0`, their routed ids `x1` and routing weights `x2`, one expert's gate
  rows `x3`, up rows `x4` and down rows `x5`, and the accumulator `acc`. It leaves, at row `r` and column `h`,
      acc r h + (∑ₖ [x1 r k = e] · x2 r k) · ∑_f (g_f · logistic g_f · u_f) · x5 h f,
  with g_f = ∑ⱼ x0 r j · x3 f j and u_f = ∑ⱼ x0 r j · x4 f j, where `e` is the expert coordinate of the grid point. Over the
  extended reals a change of float format is the identity, a matrix product into a zero accumulator is the plain sum over the
  contracted axis, and the lane sum over the two routing slots is the plain sum: each is read here with the library's lemma
  for it, over variables of the blocks' types.
-/
import proofs.«137442_j44848048505292_1_alg».proof.Proof.Gen.KernelIdeal.Skeleton
import proofs.«137442_j44848048505292_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Step

open Cert.KernelIdeal Cert.KernelIdeal.Gen Idealize.ShloMosaic Idealize.ShloMosaic.TcCoe
open Idealize.ShloMosaic.ValueIdx

/-- The two matrix products' dimension records: tokens against gate / up rows, hidden units against down rows. -/
abbrev DP := dot_S256x1024_S2048x1024_S256x2048_1_1_0_0_n_n
abbrev DD := dot_S256x2048_S1024x2048_S256x1024_1_1_0_0_n_n

theorem DP_lhs0 (i : S256x2048.Idx) (q : DP.contr.Idx) : (DP.lhsIdx i q 0).val = (i 0).val := by
  unfold DotDims.lhsIdx
  rw [dif_neg (show ¬(0 : Fin S256x1024.rank) ∈ DP.lhsBatch by decide), dif_pos (show (0 : Fin S256x1024.rank) ∈ DP.lhsNonContracting by decide)]
  rfl
theorem DP_rhs0 (i : S256x2048.Idx) (q : DP.contr.Idx) : (DP.rhsIdx i q 0).val = (i 1).val := by
  unfold DotDims.rhsIdx
  rw [dif_neg (show ¬(0 : Fin S2048x1024.rank) ∈ DP.rhsBatch by decide), dif_pos (show (0 : Fin S2048x1024.rank) ∈ DP.rhsNonContracting by decide)]
  rfl
theorem DD_lhs0 (i : S256x1024.Idx) (q : DD.contr.Idx) : (DD.lhsIdx i q 0).val = (i 0).val := by
  unfold DotDims.lhsIdx
  rw [dif_neg (show ¬(0 : Fin S256x2048.rank) ∈ DD.lhsBatch by decide), dif_pos (show (0 : Fin S256x2048.rank) ∈ DD.lhsNonContracting by decide)]
  rfl
theorem DD_rhs0 (i : S256x1024.Idx) (q : DD.contr.Idx) : (DD.rhsIdx i q 0).val = (i 1).val := by
  unfold DotDims.rhsIdx
  rw [dif_neg (show ¬(0 : Fin S1024x2048.rank) ∈ DD.rhsBatch by decide), dif_pos (show (0 : Fin S1024x2048.rank) ∈ DD.rhsNonContracting by decide)]
  rfl

/-- Tokens against rows: entry (r, f) of a · bᵀ into the zero accumulator is ∑ⱼ a r j · b f j. -/
theorem proj_apply (a : FVec Ideal S256x1024 .bf16) (b : FVec Ideal S2048x1024 .bf16) (r : Fin 256) (f : Fin 2048) :
    matmul DP none a b (constant S256x2048 .f32 0x00000000#32) (ix2 r f) = ∑ j : Fin 1024, a (ix2 r j) * b (ix2 f j) := by
  refine (Ideal.matmul_constant_zero_apply DP none a b (ix2 r f)).trans ?_
  rw [← Equiv.sum_comp (contrEquiv1 DP 1024 rfl rfl).symm]
  refine Finset.sum_congr rfl fun k _ => ?_
  have hk := contrEquiv1_symm_val DP 1024 rfl rfl k
  have el : DP.lhsIdx (ix2 r f) ((contrEquiv1 DP 1024 rfl rfl).symm k) = ix2 r k := funext fun ax => Fin.ext (by
    match ax with
    | ⟨0, _⟩ => exact DP_lhs0 _ _
    | ⟨1, _⟩ => exact (DP.lhsIdx_val_of_single rfl _ _).trans hk)
  have er : DP.rhsIdx (ix2 r f) ((contrEquiv1 DP 1024 rfl rfl).symm k) = ix2 f k := funext fun ax => Fin.ext (by
    match ax with
    | ⟨0, _⟩ => exact DP_rhs0 _ _
    | ⟨1, _⟩ => exact (DP.rhsIdx_val_of_single rfl _ _).trans hk)
  rw [el, er]

/-- Hidden units against rows: entry (r, h) of a · bᵀ into the zero accumulator is ∑_f a r f · b h f. -/
theorem down_apply (a : FVec Ideal S256x2048 .bf16) (b : FVec Ideal S1024x2048 .bf16) (r : Fin 256) (h : Fin 1024) :
    matmul DD none a b (constant S256x1024 .f32 0x00000000#32) (ix2 r h) = ∑ f : Fin 2048, a (ix2 r f) * b (ix2 h f) := by
  refine (Ideal.matmul_constant_zero_apply DD none a b (ix2 r h)).trans ?_
  rw [← Equiv.sum_comp (contrEquiv1 DD 2048 rfl rfl).symm]
  refine Finset.sum_congr rfl fun k _ => ?_
  have hk := contrEquiv1_symm_val DD 2048 rfl rfl k
  have el : DD.lhsIdx (ix2 r h) ((contrEquiv1 DD 2048 rfl rfl).symm k) = ix2 r k := funext fun ax => Fin.ext (by
    match ax with
    | ⟨0, _⟩ => exact DD_lhs0 _ _
    | ⟨1, _⟩ => exact (DD.lhsIdx_val_of_single rfl _ _).trans hk)
  have er : DD.rhsIdx (ix2 r h) ((contrEquiv1 DD 2048 rfl rfl).symm k) = ix2 h k := funext fun ax => Fin.ext (by
    match ax with
    | ⟨0, _⟩ => exact DD_rhs0 _ _
    | ⟨1, _⟩ => exact (DD.rhsIdx_val_of_single rfl _ _).trans hk)
  rw [el, er]

/-- One projection of the token block: the token block (cast to its own shape) against an expert's rows (its leading unit
    axis dropped), at (r, f). -/
theorem gate_apply (x0 : FVec Ideal S256x1024 .bf16) (x : FVec Ideal S1x2048x1024 .bf16) (r : Fin 256) (f : Fin 2048) :
    matmul DP none (shapeCast S256x1024 x0 shapeCasts_S256x1024_S256x1024) (shapeCast S2048x1024 x shapeCasts_S1x2048x1024_S2048x1024)
        (constant S256x2048 .f32 0x00000000#32) (ix2 r f)
      = ∑ j : Fin 1024, x0 (ix2 r j) * x (ix3 (0 : Fin 1) f j) := by
  refine (proj_apply _ _ r f).trans ?_
  refine Finset.sum_congr rfl fun j _ => ?_
  rw [shapeCast_self, shapeCast_1ab_ab_apply]

/-- The combine weight column: the routing weights of the slots routed to `e`, summed over the two slots, kept as a column and
    laid along the 1024 columns, read at (r, h). -/
theorem weight_apply (e : BitVec 32) (x1 : Vec Ideal S256x2 .i32) (x2 : Vec Ideal S256x2 .f32) (hφ : FKind.Formats .f32)
    (hacc : (0x00000000#32 : BitVec (FTy.bits .f32)) = FKind.add.neutral .f32 hφ) (r : Fin 256) (h : Fin 1024) :
    broadcastTo S256x1024 (shapeCast S256x1 (multiReduction (F := Ideal) .add [1] S256
        (select (cmpi .eq x1 (broadcast S256x2 e)) x2 (broadcast S256x2 (Scalar.ofBits (F := Ideal) .f32 0x00000000#32)))
        0x00000000#32 reduces_S256x2_S256 hφ hacc) shapeCasts_S256_S256x1) broadcasts_S256x1_S256x1024 (ix2 r h)
      = ∑ k : Fin 2, Scalar.select (IntOp.cmpi .eq (x1 (ix2 r k)) e) (x2 (ix2 r k)) (Ideal.ofBits .f32 0x00000000#32) := by
  refine (Keepdims.column_apply _ shapeCasts_S256_S256x1 broadcasts_S256x1_S256x1024 r h).trans ?_
  refine (Ideal.multiReduction_add_single _ 0x00000000#32 reduces_S256x2_S256 hφ hacc (ix1 r)).trans ?_
  refine Finset.sum_congr rfl fun k _ => ?_
  have e1 : reduces_S256x2_S256.lift (ix1 r) k = ix2 r k := funext fun ax => Fin.ext (by
    match ax with
    | ⟨0, _⟩ => rfl
    | ⟨1, _⟩ => rfl)
  rw [e1]
  rfl

/-- The expert's output for the block: silu(gate) · up against the down rows (leading unit axis dropped), at (r, h). -/
theorem expert_apply (x0 : FVec Ideal S256x1024 .bf16) (x3 x4 : FVec Ideal S1x2048x1024 .bf16) (x5 : FVec Ideal S1x1024x2048 .bf16)
    (r : Fin 256) (h : Fin 1024) :
    matmul DD none
        (truncf .bf16 (mulf (mulf
            (matmul DP none (shapeCast S256x1024 x0 shapeCasts_S256x1024_S256x1024) (shapeCast S2048x1024 x3 shapeCasts_S1x2048x1024_S2048x1024) (constant S256x2048 .f32 0x00000000#32))
            (logistic (matmul DP none (shapeCast S256x1024 x0 shapeCasts_S256x1024_S256x1024) (shapeCast S2048x1024 x3 shapeCasts_S1x2048x1024_S2048x1024) (constant S256x2048 .f32 0x00000000#32))))
            (matmul DP none (shapeCast S256x1024 x0 shapeCasts_S256x1024_S256x1024) (shapeCast S2048x1024 x4 shapeCasts_S1x2048x1024_S2048x1024) (constant S256x2048 .f32 0x00000000#32)))
          bitsLt_bf16_f32)
        (shapeCast S1024x2048 x5 shapeCasts_S1x1024x2048_S1024x2048) (constant S256x1024 .f32 0x00000000#32) (ix2 r h)
      = ∑ f : Fin 2048, ((∑ j : Fin 1024, x0 (ix2 r j) * x3 (ix3 (0 : Fin 1) f j))
            * Ideal.logistic (∑ j : Fin 1024, x0 (ix2 r j) * x3 (ix3 (0 : Fin 1) f j))
            * (∑ j : Fin 1024, x0 (ix2 r j) * x4 (ix3 (0 : Fin 1) f j))) * x5 (ix3 (0 : Fin 1) h f) := by
  refine (down_apply _ _ r h).trans ?_
  refine Finset.sum_congr rfl fun f _ => ?_
  rw [shapeCast_1ab_ab_apply]
  refine congrArg (· * x5 (ix3 (0 : Fin 1) h f)) ?_
  show (matmul (F := Ideal) DP none _ _ _ (ix2 r f)) * Ideal.logistic (matmul (F := Ideal) DP none _ _ _ (ix2 r f)) * (matmul (F := Ideal) DP none _ _ _ (ix2 r f)) = _
  rw [gate_apply x0 x3 r f, gate_apply x0 x4 r f]

/-- THE STEP: what the body's sum leaves at (r, h), from the accumulator and the point's blocks. -/
theorem step_apply (i : grid0.Coords) (x0 : Vec Ideal S256x1024 .bf16) (x3 x4 : Vec Ideal S1x2048x1024 .bf16)
    (x5 : Vec Ideal S1x1024x2048 .bf16) (x1 : Vec Ideal S256x2 .i32) (x2 : Vec Ideal S256x2 .f32) (acc : Vec Ideal S256x1024 .f32)
    (r : Fin 256) (h : Fin 1024) :
    k0_pay3 (F := Ideal) i x0 x3 x4 x5 x1 x2 acc (ix2 r h)
      = acc (ix2 r h)
        + (∑ k : Fin 2, Scalar.select (IntOp.cmpi .eq (x1 (ix2 r k)) (BitVec.ofNat 32 (i 1).val)) (x2 (ix2 r k)) (Ideal.ofBits .f32 0x00000000#32))
          * ∑ f : Fin 2048, ((∑ j : Fin 1024, x0 (ix2 r j) * x3 (ix3 (0 : Fin 1) f j))
              * Ideal.logistic (∑ j : Fin 1024, x0 (ix2 r j) * x3 (ix3 (0 : Fin 1) f j))
              * (∑ j : Fin 1024, x0 (ix2 r j) * x4 (ix3 (0 : Fin 1) f j))) * x5 (ix3 (0 : Fin 1) h f) := by
  unfold k0_pay3
  dsimp only
  refine congrArg (acc (ix2 r h) + ·) ?_
  refine congr (congrArg HMul.hMul ?_) ?_
  · exact weight_apply (BitVec.ofNat 32 (i 1).val) x1 x2 _ _ r h
  · exact expert_apply x0 x3 x4 x5 r h

end Cert.KernelIdeal.Step

end
-- ==== Proof.Blocks.lean ====
/-
  The blocks a grid point sees, read off the argument arrays.

  The grid is 32 token tiles by 8 experts, the expert coordinate moving fastest: point `t` is tile `t / 8`, expert `t % 8`.
  At point `t` the token window holds rows 256·(t/8) … 256·(t/8)+255 of the tokens, the id and weight windows the same rows
  of the routing arrays, and the three expert windows hold expert `t % 8`'s gate rows (rows 0–2047 of its stacked matrix),
  up rows (rows 2048–4095) and down matrix. The arrays the windows stage are written by host operations before the call —
  a change of float format, which over the extended reals is the identity, and for the gate and up rows a slice of the
  stacked matrices — so each block entry is an entry of an argument array.
-/
import proofs.«137442_j44848048505292_1_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The printed index maps and the expert coordinate, decided once over the 256 grid points. -/
theorem index_facts : ∀ t : Fin cfg0.N,
    win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 3) = t.val % 8 ∧ win0_3.index t (1 : Fin 3) = 0 ∧ win0_3.index t (2 : Fin 3) = 0
    ∧ win0_4.index t (0 : Fin 3) = t.val % 8 ∧ win0_4.index t (1 : Fin 3) = 0 ∧ win0_4.index t (2 : Fin 3) = 0
    ∧ win0_5.index t (0 : Fin 3) = t.val % 8 ∧ win0_5.index t (1 : Fin 3) = 0 ∧ win0_5.index t (2 : Fin 3) = 0
    ∧ win0_6.index t (0 : Fin 2) = t.val / 8 ∧ win0_6.index t (1 : Fin 2) = 0
    ∧ (grid0.coords t (1 : Fin 2)).val = t.val % 8 :=
  (by decide +kernel : ∀ t : Fin grid0.N, _)

/-- Row `r` of tile `t / 8` is a token. -/
abbrev tok (t : Fin cfg0.N) (r : Fin 256) : Fin 8192 :=
  ⟨256 * (t.val / 8) + r.val, by have h := lt_of_lt_of_eq t.isLt (show cfg0.N = 256 from N_0); have := r.isLt; omega⟩

/-- Point `t`'s expert. -/
abbrev exp (t : Fin cfg0.N) : Fin 8 := ⟨t.val % 8, Nat.mod_lt _ (by decide)⟩

/-- The arrays the host operations before the call write, as functions of the arguments: over the extended reals the
    change of float format is the identity, so the staged token and down arrays ARE the arguments, and the staged gate and
    up arrays are the two halves of the stacked matrices. -/
theorem V_tokens (c : Dev nD) : @Eq (S8192x1024.Idx → EReal) (V m c main_v0) (m ((c : Thread nD τ).loc main_arg0)) := by
  dsimp only [Gen.V, Gen.hostOps0]; after_results; rfl
theorem V_gate (c : Dev nD) : @Eq (S8x2048x1024.Idx → EReal) (V m c main_v2)
    (extractStridedSlice (s := S8x4096x1024) (α := EReal) S8x2048x1024 ![0, 0, 0] (m ((c : Thread nD τ).loc main_arg3)) slices_S8x4096x1024_S8x2048x1024_0_0_0) := by
  dsimp only [Gen.V, Gen.hostOps0]; after_results; rfl
theorem V_up (c : Dev nD) : @Eq (S8x2048x1024.Idx → EReal) (V m c main_v4)
    (extractStridedSlice (s := S8x4096x1024) (α := EReal) S8x2048x1024 ![0, 2048, 0] (m ((c : Thread nD τ).loc main_arg3)) slices_S8x4096x1024_S8x2048x1024_0_2048_0) := by
  dsimp only [Gen.V, Gen.hostOps0]; after_results; rfl
theorem V_down (c : Dev nD) : @Eq (S8x1024x2048.Idx → EReal) (V m c main_v5) (m ((c : Thread nD τ).loc main_arg4)) := by
  dsimp only [Gen.V, Gen.hostOps0]; after_results; rfl

/-- The token block. -/
theorem tokens_apply (c : Dev nD) (t : Fin cfg0.N) (r : Fin 256) (j : Fin 1024) :
    (iblk m c 0 t : Vec Ideal S256x1024 .bf16) (ix2 r j) = m ((c : Thread nD τ).loc main_arg0) (ix2 (tok t r) j) := by
  obtain ⟨e0, e1, -⟩ := index_facts t
  unfold iblk
  rw [View.read_apply]
  show V m c main_v0 _ = _
  rw [V_tokens]
  congr 1
  funext a
  apply Fin.ext
  match a with
  | ⟨0, _⟩ => show win0_0.index t 0 * 256 + 1 * r.val = 256 * (t.val / 8) + r.val; rw [e0]; omega
  | ⟨1, _⟩ => show win0_0.index t 1 * 1024 + 1 * j.val = j.val; rw [e1]; omega

/-- The routed-id block. -/
theorem ids_apply (c : Dev nD) (t : Fin cfg0.N) (r : Fin 256) (k : Fin 2) :
    (iblk m c 1 t : Vec Ideal S256x2 .i32) (ix2 r k) = m ((c : Thread nD τ).loc main_arg2) (ix2 (tok t r) k) := by
  obtain ⟨-, -, e0, e1, -⟩ := index_facts t
  unfold iblk
  rw [View.read_apply]
  show V m c main_arg2 _ = _
  rw [V_main_arg2]
  congr 1
  funext a
  apply Fin.ext
  match a with
  | ⟨0, _⟩ => show win0_1.index t 0 * 256 + 1 * r.val = 256 * (t.val / 8) + r.val; rw [e0]; omega
  | ⟨1, _⟩ => show win0_1.index t 1 * 2 + 1 * k.val = k.val; rw [e1]; omega

/-- The routing-weight block. -/
theorem weights_apply (c : Dev nD) (t : Fin cfg0.N) (r : Fin 256) (k : Fin 2) :
    (iblk m c 2 t : Vec Ideal S256x2 .f32) (ix2 r k) = m ((c : Thread nD τ).loc main_arg1) (ix2 (tok t r) k) := by
  obtain ⟨-, -, -, -, e0, e1, -⟩ := index_facts t
  unfold iblk
  rw [View.read_apply]
  show V m c main_arg1 _ = _
  rw [V_main_arg1]
  congr 1
  funext a
  apply Fin.ext
  match a with
  | ⟨0, _⟩ => show win0_2.index t 0 * 256 + 1 * r.val = 256 * (t.val / 8) + r.val; rw [e0]; omega
  | ⟨1, _⟩ => show win0_2.index t 1 * 2 + 1 * k.val = k.val; rw [e1]; omega

/-- The gate rows of the point's expert. -/
theorem gate_apply (c : Dev nD) (t : Fin cfg0.N) (f : Fin 2048) (j : Fin 1024) :
    (iblk m c 3 t : Vec Ideal S1x2048x1024 .bf16) (ix3 (0 : Fin 1) f j)
      = m ((c : Thread nD τ).loc main_arg3) (ix3 (exp t) (⟨f.val, by have := f.isLt; omega⟩ : Fin 4096) j) := by
  obtain ⟨-, -, -, -, -, -, e0, e1, e2, -⟩ := index_facts t
  unfold iblk
  rw [View.read_apply]
  show V m c main_v2 _ = _
  rw [V_gate]
  refine extractStridedSlice_apply _ _ _ _ _ fun a => ?_
  match a with
  | ⟨0, _⟩ => show t.val % 8 = 0 + (win0_3.index t 0 * 1 + 1 * 0); rw [e0]; omega
  | ⟨1, _⟩ => show f.val = 0 + (win0_3.index t 1 * 2048 + 1 * f.val); rw [e1]; omega
  | ⟨2, _⟩ => show j.val = 0 + (win0_3.index t 2 * 1024 + 1 * j.val); rw [e2]; omega

/-- The up rows of the point's expert. -/
theorem up_apply (c : Dev nD) (t : Fin cfg0.N) (f : Fin 2048) (j : Fin 1024) :
    (iblk m c 4 t : Vec Ideal S1x2048x1024 .bf16) (ix3 (0 : Fin 1) f j)
      = m ((c : Thread nD τ).loc main_arg3) (ix3 (exp t) (⟨2048 + f.val, by have := f.isLt; omega⟩ : Fin 4096) j) := by
  obtain ⟨-, -, -, -, -, -, -, -, -, e0, e1, e2, -⟩ := index_facts t
  unfold iblk
  rw [View.read_apply]
  show V m c main_v4 _ = _
  rw [V_up]
  refine extractStridedSlice_apply _ _ _ _ _ fun a => ?_
  match a with
  | ⟨0, _⟩ => show t.val % 8 = 0 + (win0_4.index t 0 * 1 + 1 * 0); rw [e0]; omega
  | ⟨1, _⟩ => show 2048 + f.val = 2048 + (win0_4.index t 1 * 2048 + 1 * f.val); rw [e1]; omega
  | ⟨2, _⟩ => show j.val = 0 + (win0_4.index t 2 * 1024 + 1 * j.val); rw [e2]; omega

/-- The down matrix of the point's expert. -/
theorem down_apply (c : Dev nD) (t : Fin cfg0.N) (h : Fin 1024) (f : Fin 2048) :
    (iblk m c 5 t : Vec Ideal S1x1024x2048 .bf16) (ix3 (0 : Fin 1) h f)
      = m ((c : Thread nD τ).loc main_arg4) (ix3 (exp t) h f) := by
  obtain ⟨-, -, -, -, -, -, -, -, -, -, -, -, e0, e1, e2, -⟩ := index_facts t
  unfold iblk
  rw [View.read_apply]
  show V m c main_v5 _ = _
  rw [V_down]
  congr 1
  funext a
  apply Fin.ext
  match a with
  | ⟨0, _⟩ => show win0_5.index t 0 * 1 + 1 * 0 = t.val % 8; rw [e0]; omega
  | ⟨1, _⟩ => show win0_5.index t 1 * 1024 + 1 * h.val = h.val; rw [e1]; omega
  | ⟨2, _⟩ => show win0_5.index t 2 * 2048 + 1 * f.val = f.val; rw [e2]; omega

end Cert.KernelIdeal.Blocks

end
-- ==== Proof.Running.lean ====
/-
  The accumulator after each grid point is the running sum over the experts.

  Point `t` is token tile `t / 8`, expert `t % 8`. By induction on the point: after point `t` the carried scratch holds, at row
  `r` and column `h`, the sum over experts 0, …, t % 8 (in that order, from zero) of the experts' weighted outputs for token
  256·(t/8) + r. At expert 0 the scratch is reset and the first term added to zero; at a later expert the term is added to
  what the point before left, which is the same tile's sum one expert short. The output block holds the same at every point.
-/
import proofs.«137442_j44848048505292_1_alg».proof.Proof.Pieces
import proofs.«137442_j44848048505292_1_alg».proof.Proof.Step
import proofs.«137442_j44848048505292_1_alg».proof.Proof.Blocks
import proofs.«137442_j44848048505292_1_alg».proof.Proof.Experts

noncomputable section

namespace Cert.KernelIdeal.Running

open Cert.KernelIdeal Cert.KernelIdeal.Gen Idealize.ShloMosaic Idealize.ShloMosaic.TcCoe Idealize.SL.Sem
open Idealize.ShloMosaic.ValueIdx Cert.KernelIdeal.Blocks

variable (m : (ℓ : Loc nD τ sig) → Buf (Elt Ideal) ℓ)

/-- The argument arrays as launched. -/
abbrev aX (c : Dev nD) : (⟨2, ![8192, 1024]⟩ : Shape).Idx → EReal := m ((c : Thread nD τ).loc main_arg0)
abbrev aW (c : Dev nD) : (⟨2, ![8192, 2]⟩ : Shape).Idx → EReal := m ((c : Thread nD τ).loc main_arg1)
abbrev aI (c : Dev nD) : (⟨2, ![8192, 2]⟩ : Shape).Idx → BitVec 32 := m ((c : Thread nD τ).loc main_arg2)
abbrev aG (c : Dev nD) : (⟨3, ![8, 4096, 1024]⟩ : Shape).Idx → EReal := m ((c : Thread nD τ).loc main_arg3)
abbrev aD (c : Dev nD) : (⟨3, ![8, 1024, 2048]⟩ : Shape).Idx → EReal := m ((c : Thread nD τ).loc main_arg4)

/-- ONE POINT: over any starting block `acc`, the body's sum at point `t` adds, at (r, h), the point's expert's weighted
    output for the tile's token `r`. -/
theorem point_apply (c : Dev nD) (t : Fin cfg0.N) (acc : Vec Ideal S256x1024 .f32) (r : Fin 256) (h : Fin 1024) :
    k0_pay1 (k0_pay3 (F := Ideal) (grid0.coords t) (iblk m c 0 t) (iblk m c 3 t) (iblk m c 4 t) (iblk m c 5 t) (iblk m c 1 t) (iblk m c 2 t) acc) (ix2 r h)
      = acc (ix2 r h) + Cert.Experts.term (aX m c) (aW m c) (aI m c) (aG m c) (aD m c) (exp t) (tok t r) h := by
  unfold k0_pay1
  rw [shapeCast_self]
  refine (Cert.KernelIdeal.Step.step_apply (grid0.coords t) (iblk m c 0 t) (iblk m c 3 t) (iblk m c 4 t) (iblk m c 5 t) (iblk m c 1 t) (iblk m c 2 t) acc r h).trans ?_
  have hcoord : (grid0.coords t (1 : Fin 2)).val = t.val % 8 := (index_facts t).2.2.2.2.2.2.2.2.2.2.2.2.2.2.2.2.2
  rw [hcoord]
  simp only [tokens_apply, ids_apply, weights_apply, Blocks.gate_apply, up_apply, Blocks.down_apply]
  rfl

/-- The zero block the reset stores reads zero everywhere. -/
theorem zero_apply (r : Fin 256) (h : Fin 1024) : k0_pay2 (F := Ideal) (ix2 r h) = Cert.Experts.zero := rfl

/-- THE INVARIANT: the carried scratch after point `n`. -/
theorem scratch_eq (c : Dev nD) : ∀ (n : ℕ) (hn : n < cfg0.N) (r : Fin 256) (h : Fin 1024),
    (outsAt0 m c n hn).2 (ix2 r h)
      = Cert.Experts.upTo (aX m c) (aW m c) (aI m c) (aG m c) (aD m c) (n % 8) (Nat.mod_lt _ (by decide)) (tok ⟨n, hn⟩ r) h := by
  intro n
  induction n with
  | zero =>
    intro hn r h
    rw [outsAt0_A m c ⟨0, hn⟩ rfl]
    dsimp only
    rw [Pieces.sout_A, point_apply m c ⟨0, hn⟩ _ r h, zero_apply]
    rfl
  | succ n ih =>
    intro hn r h
    have hN : n + 1 < 256 := lt_of_lt_of_eq hn (show cfg0.N = 256 from N_0)
    by_cases h0 : (n + 1) % 8 = 0
    · rw [outsAt0_A m c ⟨n + 1, hn⟩ h0]
      dsimp only
      rw [Pieces.sout_A, point_apply m c ⟨n + 1, hn⟩ _ r h, zero_apply]
      rw [Cert.Experts.upTo_congr _ _ _ _ _ h0 (Nat.mod_lt _ (by decide)) (by decide : 0 < 8) rfl h, Cert.Experts.upTo_zero]
      have he : exp ⟨n + 1, hn⟩ = (⟨0, by decide⟩ : Fin 8) := Fin.ext h0
      rw [he]
    · rw [outsAt0_B m c ⟨n + 1, hn⟩ h0]
      dsimp only
      rw [Pieces.sout_B, point_apply m c ⟨n + 1, hn⟩ _ r h]
      have hstep : (n + 1) % 8 = n % 8 + 1 := by omega
      have hlt : n % 8 + 1 < 8 := by omega
      have htok : tok ⟨n, Nat.lt_of_succ_lt hn⟩ r = tok ⟨n + 1, hn⟩ r := Fin.ext (by show 256 * (n / 8) + r.val = 256 * ((n + 1) / 8) + r.val; omega)
      have ih' := ih (Nat.lt_of_succ_lt hn) r h
      rw [Cert.Experts.upTo_congr _ _ _ _ _ hstep (Nat.mod_lt _ (by decide)) hlt rfl h, Cert.Experts.upTo_succ]
      have he : exp ⟨n + 1, hn⟩ = (⟨n % 8 + 1, hlt⟩ : Fin 8) := Fin.ext hstep
      rw [he]
      refine congrArg (· + _) ?_
      show (outsAt0 m c (n + 1 - 1) _).2 (ix2 r h) = _
      rw [← htok]
      exact ih'

/-- The output block after a point whose expert is not the first holds what the scratch holds. -/
theorem out_eq_scratch (c : Dev nD) (t : Fin cfg0.N) (h0 : ¬t.val % 8 = 0) :
    (outsAt0 m c t.val t.isLt).1 = (outsAt0 m c t.val t.isLt).2 := by
  rw [outsAt0_B m c t h0]
  dsimp only
  rw [Pieces.out_B, Pieces.sout_B]

end Cert.KernelIdeal.Running

end
-- ==== Proof.Result.lean ====
/-
  The kernel's result array.

  The output window is written back once per token tile, after the tile's last expert (the points ≡ 7 mod 8). What is
  written back there is the carried running sum over all eight experts for the tile's 256 tokens — rows 256·(t/8) … of the
  full mixture — and the 32 tiles' blocks cover the 8192 rows. So after the run the result array holds, at (token, column),
  the mixture of experts of the argument arrays, and the arguments are unchanged.
-/
import proofs.«137442_j44848048505292_1_alg».proof.Proof.Running
import proofs.«137442_j44848048505292_1_alg».proof.Proof.Gen.KernelIdeal.Value

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Blocks Cert.KernelIdeal.Running

variable (m : (ℓ : Loc nD τ sig) → Buf (Elt Ideal) ℓ) (ρ : Dev nD → PrngReg)

/-- The mixture of experts of the arguments as launched, as contents of the result array. -/
abbrev result (c : Dev nD) : Buf (Elt Ideal) ((c : Thread nD τ).loc main_v6) :=
  fun i => Cert.Experts.moe (aX m c) (aW m c) (aI m c) (aG m c) (aD m c) (i 0) (i 1)

/-- The running sum does not depend on how its three indices are written. -/
theorem upTo_congr3 (X : (⟨2, ![8192, 1024]⟩ : Shape).Idx → EReal) (W : (⟨2, ![8192, 2]⟩ : Shape).Idx → EReal)
    (I : (⟨2, ![8192, 2]⟩ : Shape).Idx → BitVec 32) (G : (⟨3, ![8, 4096, 1024]⟩ : Shape).Idx → EReal)
    (D : (⟨3, ![8, 1024, 2048]⟩ : Shape).Idx → EReal) {n n' : ℕ} (en : n = n') (hn : n < 8) (hn' : n' < 8)
    {t t' : Fin 8192} (et : t = t') {h h' : Fin 1024} (eh : h = h') :
    Cert.Experts.upTo X W I G D n hn t h = Cert.Experts.upTo X W I G D n' hn' t' h' := by
  subst en; subst et; subst eh; rfl

/-- The output window's block index at point `t`: tile `t / 8`, the whole width. -/
theorem out_index (t : Fin cfg0.N) : win0_6.index t (0 : Fin 2) = t.val / 8 ∧ win0_6.index t (1 : Fin 2) = 0 :=
  ⟨(index_facts t).2.2.2.2.2.2.2.2.2.2.2.2.2.2.2.1, (index_facts t).2.2.2.2.2.2.2.2.2.2.2.2.2.2.2.2.1⟩

/-- WHAT A FLUSHING POINT WRITES BACK is its tile's block of the mixture. -/
theorem flushed_eq (c : Dev nD) (t : Fin cfg0.N) (hf : (cfg0.win 6).flush t = true) :
    (dats m 0 c).flushed 6 t = ((cfg0.win 6).blk t).view.read (Elt Ideal) (result m c) := by
  have h7 : t.val % 8 = 7 := (flush0_6 t).mp hf
  have h0 : ¬t.val % 8 = 0 := by omega
  obtain ⟨e0, e1⟩ := out_index t
  rw [Cert.KernelIdeal.Value.flushed6, out_eq_scratch m c t h0]
  funext y
  obtain ⟨r, h, rfl⟩ : ∃ (r : Fin 256) (h : Fin 1024), y = ix2 r h := ⟨y 0, y 1, eq_ix2 y⟩
  rw [View.read_apply]
  show (outsAt0 m c t.val t.isLt).2 (ix2 r h)
    = Cert.Experts.upTo (aX m c) (aW m c) (aI m c) (aG m c) (aD m c) 7 (by decide)
        ((((cfg0.win 6).blk t).view.emb (ix2 r h)) 0) ((((cfg0.win 6).blk t).view.emb (ix2 r h)) 1)
  refine (scratch_eq m c t.val t.isLt r h).trans ?_
  refine upTo_congr3 _ _ _ _ _ h7 _ _ (Fin.ext ?_) (Fin.ext ?_)
  · show 256 * (t.val / 8) + r.val = win0_6.index t 0 * 256 + 1 * r.val
    rw [e0]; omega
  · show h.val = win0_6.index t 1 * 1024 + 1 * h.val
    rw [e1]; omega

/-- An index of the array is in point `t`'s block iff each coordinate is in the block's range on its axis. -/
theorem mem_blk (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v6).slice (win0_6.rect t)).set ↔ _
  rw [View.set_slice_whole, Rect.mem_set_unit]
  exact Iff.rfl

/-- Every row is in the block written back after its tile's last expert. -/
theorem cover (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 256 := N_0
  have hb : 8 * ((i 0).val / 256) + 7 < cfg0.N := by rw [hN]; omega
  obtain ⟨e0, e1⟩ := out_index ⟨8 * ((i 0).val / 256) + 7, hb⟩
  refine ⟨⟨8 * ((i 0).val / 256) + 7, hb⟩, (flush0_6 _).mpr (by show (8 * ((i 0).val / 256) + 7) % 8 = 7; omega), ?_⟩
  rw [mem_blk]
  intro a
  match a with
  | ⟨0, _⟩ =>
    show win0_6.index ⟨8 * ((i 0).val / 256) + 7, hb⟩ 0 * 256 ≤ (i 0).val ∧ (i 0).val < win0_6.index ⟨8 * ((i 0).val / 256) + 7, hb⟩ 0 * 256 + 256
    rw [e0]
    show (8 * ((i 0).val / 256) + 7) / 8 * 256 ≤ (i 0).val ∧ (i 0).val < (8 * ((i 0).val / 256) + 7) / 8 * 256 + 256
    omega
  | ⟨1, _⟩ =>
    show win0_6.index ⟨8 * ((i 0).val / 256) + 7, hb⟩ 1 * 1024 ≤ (i 1).val ∧ (i 1).val < win0_6.index ⟨8 * ((i 0).val / 256) + 7, hb⟩ 1 * 1024 + 1024
    rw [e1]
    omega

/-- THE RESULT ARRAY after the run is the mixture of experts of the arguments. -/
theorem final (c : Dev nD) : (dats m 0 c).arrAt 6 cfg0.N = result m c :=
  (dats m 0 c).arrAt_eq_of_cover 6 (result m c) (flushed_eq m c) cover

/-- The run, read: the result array at the mixture, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Result

end
-- ==== Proof.lean ====
/-
  The fused mixture of experts against its reference, over the extended reals.

  8192 tokens, 8 experts, 2 routing slots per token. For every expert the reference projects all tokens with the expert's
  stacked gate/up matrix, takes silu(gate) · up, projects with the expert's down matrix, and adds the result, weighted per
  token by the routing weights of the slots routed to that expert, to a running sum started from zero. The kernel walks a
  grid of 32 token tiles by 8 experts: at each point it does the same for one tile of 256 tokens and one expert, adding into
  a block it carries from point to point and resets at each tile's first expert, and writes the block back after the tile's
  last expert. Over the extended reals a change of float format is the identity and a matrix product is the plain sum over
  the contracted axis, and both programs add the experts' terms in the order 0, …, 7 from the same zero: entry by entry both
  results are one expression, `Cert.Experts.moe` of the argument arrays (Proof/Experts.lean). No finiteness of the inputs
  is used.

    frames — the generated frame runs of the two kernel programs, and the reference's run with its result dropped;
    preserves — the idealization rewrote nothing: `True`;
    algebraic — the kernel's result array is the mixture (Proof/Result.lean, over Proof/Running.lean's induction on the
      grid point), the reference's composed term is the mixture (Proof/HostSum.lean), of arguments that agree.
-/
import proofs.«137442_j44848048505292_1_alg».proof.Defs
import proofs.«137442_j44848048505292_1_alg».proof.Proof.Gen.Kernel
import proofs.«137442_j44848048505292_1_alg».proof.Proof.Gen.Kernel.Skeleton
import proofs.«137442_j44848048505292_1_alg».proof.Proof.Gen.Kernel.Launch
import proofs.«137442_j44848048505292_1_alg».proof.Proof.Gen.Kernel.Points
import proofs.«137442_j44848048505292_1_alg».proof.Proof.Gen.Kernel.Frame
import proofs.«137442_j44848048505292_1_alg».proof.Proof.Gen.KernelIdeal
import proofs.«137442_j44848048505292_1_alg».proof.Proof.Gen.KernelIdeal.Skeleton
import proofs.«137442_j44848048505292_1_alg».proof.Proof.Gen.KernelIdeal.Launch
import proofs.«137442_j44848048505292_1_alg».proof.Proof.Gen.KernelIdeal.Points
import proofs.«137442_j44848048505292_1_alg».proof.Proof.Gen.KernelIdeal.Frame
import proofs.«137442_j44848048505292_1_alg».proof.Proof.Gen.ReferenceIdeal
import proofs.«137442_j44848048505292_1_alg».proof.Proof.Gen.Pre_finite_inputs
import proofs.«137442_j44848048505292_1_alg».proof.Proof.Gen.KernelIdeal.Value
import proofs.«137442_j44848048505292_1_alg».proof.Proof.HostRun
import proofs.«137442_j44848048505292_1_alg».proof.Proof.HostSum
import proofs.«137442_j44848048505292_1_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result array at the mixture of experts of their own arguments; the arguments agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
